-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x512 : Shape := ⟨2, ![5000, 512]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩

abbrev nBuf : Space → Nat
  | .hbm => 55
  | .vmem => 22
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x16, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000x16, .f32⟩
  | .hbm, ⟨34, _⟩ => ⟨S_, .f32⟩
  | .hbm, ⟨35, _⟩ => ⟨S100000x16, .f32⟩
  | .hbm, ⟨36, _⟩ => ⟨S3300000x1, .i32⟩
  | .hbm, ⟨37, _⟩ => ⟨S100000x16, .f32⟩
  | .hbm, ⟨38, _⟩ => ⟨S1x16, .f32⟩
  | .hbm, ⟨39, _⟩ => ⟨S100000x40, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x40, .f32⟩
  | .hbm, ⟨49, _⟩ => ⟨S_, .f32⟩
  | .hbm, ⟨50, _⟩ => ⟨S100000x40, .f32⟩
  | .hbm, ⟨51, _⟩ => ⟨S3300000x1, .i32⟩
  | .hbm, ⟨52, _⟩ => ⟨S100000x40, .f32⟩
  | .hbm, ⟨53, _⟩ => ⟨S1x40, .f32⟩
  | .hbm, ⟨54, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S5000x1, .f32⟩
  | .local _ .vmem, ⟨18, _⟩ => ⟨S5000x1, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x40 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x512_S5000x512_0_0 : ∀ a, (![0, 0] : Fin 2 → Nat) a + S5000x512.size a ≤ S5000x512.size a
  h_S5000x512 : 0 < S5000x512.numel
  inb_S512x16_S512x16_0_0 : ∀ a, (![0, 0] : Fin 2 → Nat) a + S512x16.size a ≤ S512x16.size a
  h_S512x16 : 0 < S512x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  scatter_S100000_S3300000x1_S3300000_n_0_0_1_wf : ScatterDims.WF S100000 S3300000x1 S3300000 [] [0] [0] 1
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x40.size a ≤ S16x40.size a
  hwx1_3 : ∀ i : grid1.Coords, EltTy.bits .f32 = 32 ∨ (Rect.block (s := S16x40) S16x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x40.size a ≤ S100000x40.size a
  hwx1_4 : ∀ i : grid1.Coords, EltTy.bits .f32 = 32 ∨ (Rect.block (s := S100000x40) S5000x40.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x40.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 130
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S100000, .f32⟩
  | 21 => ⟨S_, .i32⟩
  | 22 => ⟨S3300000, .i32⟩
  | 23 => ⟨S3300000, .i1⟩
  | 24 => ⟨S_, .i32⟩
  | 25 => ⟨S3300000, .i32⟩
  | 26 => ⟨S3300000, .i32⟩
  | 27 => ⟨S3300000, .i32⟩
  | 28 => ⟨S3300000x1, .i32⟩
  | 29 => ⟨S3300000, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000, .f32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000x16, .f32⟩
  | 49 => ⟨S3300000x1, .f32⟩
  | 50 => ⟨S3300000x16, .f32⟩
  | 51 => ⟨S3300000x16, .f32⟩
  | 52 => ⟨S_, .f32⟩
  | 53 => ⟨S100000x16, .f32⟩
  | 54 => ⟨S3300000x1, .i32⟩
  | 55 => ⟨S100000x16, .f32⟩
  | 56 => ⟨S1x16, .f32⟩
  | 57 => ⟨S100000x16, .f32⟩
  | 58 => ⟨S100000x16, .f32⟩
  | 59 => ⟨S_, .f32⟩
  | 60 => ⟨S100000x16, .f32⟩
  | 61 => ⟨S100000x16, .f32⟩
  | 62 => ⟨S100000x40, .f32⟩
  | 63 => ⟨S100000, .i32⟩
  | 64 => ⟨S1x3200000, .i32⟩
  | 65 => ⟨S3200000, .i32⟩
  | 66 => ⟨S3300000, .i32⟩
  | 67 => ⟨S1x3200000, .i32⟩
  | 68 => ⟨S3200000, .i32⟩
  | 69 => ⟨S3300000, .i32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S100000, .f32⟩
  | 77 => ⟨S_, .i32⟩
  | 78 => ⟨S3300000, .i32⟩
  | 79 => ⟨S3300000, .i1⟩
  | 80 => ⟨S_, .i32⟩
  | 81 => ⟨S3300000, .i32⟩
  | 82 => ⟨S3300000, .i32⟩
  | 83 => ⟨S3300000, .i32⟩
  | 84 => ⟨S3300000x1, .i32⟩
  | 85 => ⟨S3300000, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000, .f32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000x40, .f32⟩
  | 105 => ⟨S3300000x1, .f32⟩
  | 106 => ⟨S3300000x40, .f32⟩
  | 107 => ⟨S3300000x40, .f32⟩
  | 108 => ⟨S_, .f32⟩
  | 109 => ⟨S100000x40, .f32⟩
  | 110 => ⟨S3300000x1, .i32⟩
  | 111 => ⟨S100000x40, .f32⟩
  | 112 => ⟨S1x40, .f32⟩
  | 113 => ⟨S100000x40, .f32⟩
  | 114 => ⟨S100000x40, .f32⟩
  | 115 => ⟨S_, .f32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x40, .f32⟩
  | 122 => ⟨S100000x40, .f32⟩
  | 123 => ⟨S100000x40, .f32⟩
  | 124 => ⟨S_, .f32⟩
  | 125 => ⟨S100000, .f32⟩
  | 126 => ⟨S100000x1, .f32⟩
  | 127 => ⟨S100000x1, .f32⟩
  | _ => ⟨S100000x512, .f32⟩

abbrev hbmTy0_1 (i : Nat) : BufTy := match i % 128 with
  | 0 => ⟨S100000x40, .f32⟩
  | 1 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call1_cst : Ref sig .tc := ⟨.hbm, 115, rfl⟩
abbrev main_call1_v0 : Ref sig .tc := ⟨.hbm, 116, rfl⟩
abbrev main_call1_cst_0 : Ref sig .tc := ⟨.hbm, 117, rfl⟩
abbrev main_call1_v1 : Ref sig .tc := ⟨.hbm, 118, rfl⟩
abbrev main_call1_v2 : Ref sig .tc := ⟨.hbm, 119, rfl⟩
abbrev main_call1_v3 : Ref sig .tc := ⟨.hbm, 120, rfl⟩
abbrev main_call1_v4 : Ref sig .tc := ⟨.hbm, 121, rfl⟩
abbrev main_call1_v5 : Ref sig .tc := ⟨.hbm, 122, rfl⟩
abbrev main_call1_v6 : Ref sig .tc := ⟨.hbm, 123, rfl⟩
abbrev main_call1_cst_1 : Ref sig .tc := ⟨.hbm, 124, rfl⟩
abbrev main_call1_v7 : Ref sig .tc := ⟨.hbm, 125, rfl⟩
abbrev main_call1_v8 : Ref sig .tc := ⟨.hbm, 126, rfl⟩
abbrev main_call1_v9 : Ref sig .tc := ⟨.hbm, 127, rfl⟩
abbrev main_call1_v10 : Ref sig .tc := ⟨.hbm, 128, rfl⟩
abbrev main_v89 : Ref sig .tc := ⟨.hbm, 129, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its result named.

  The program is three row-tiled regions among stretches of host operations. Its generated frame run walks the
  buffer contents from the launch memory through each stretch (a fold of the stretch's operations) and each region
  (its arrays at what the region's write-backs leave), ending at the contents `W6`. The same walk, read at the
  result buffer as well as at the arguments, says: every weakly fair execution terminates with the result array at
  `W6` of its buffer and the arguments as launched.
-/
import proofs.«133916_j43731357008179_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched. -/
theorem run_named : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«133916_j43731357008179_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibTileSoftmax.lean ====
/-
  Row tiles through a row-wise softmax, and the host's spelling of the same columns.

  With `IsTile r0 hr x X` (the T × C array x is rows [r0, r0 + T) of the M × C array X):
  * the maximum along each row of a tile from a starting value, kept as a T × 1 column, is the tile of the whole
    array's column of row maxima (`rowMax`, the fold of `max` over the row from that value) — the companion of the
    row sums kept as a column;
  * a difference and an exponential, entry by entry, keep tiles.
  On the whole array's side the host writes a column of row sums (or maxima) as a reduce over the second axis followed
  by a broadcast of the length-M vector along axis 0 into M × 1: that IS the column `rowSum` (or `rowMax`), whatever the
  initial value's rank-0 spelling, and a maximum taken once more with the starting value changes nothing.
-/
import proofs.«133916_j43731357008179_2_alg».proof.Proof.LibTileMore
import proofs.«133916_j43731357008179_2_alg».proof.Proof.LibRowOps

noncomputable section

namespace Cert.Tile

open Idealize.ShloMosaic Idealize.ShloMosaic.ValueIdx

/-- The maxima along the rows of an M × C array, each the fold of `max` over the row from `b`, kept as an M × 1 column. -/
def rowMax {M C : Nat} (b : EReal) (X : (⟨2, ![M, C]⟩ : Shape).Idx → EReal) : (⟨2, ![M, 1]⟩ : Shape).Idx → EReal :=
  fun i => (Finset.univ : Finset (Fin C)).fold max b (fun l => X (ix2 (n0 := M) (n1 := C) (i 0) l))

/-- Row a of the column of row maxima is the fold of `max` over row a. -/
theorem rowMax_apply {M C : Nat} (b : EReal) (X : (⟨2, ![M, C]⟩ : Shape).Idx → EReal) (a : Fin M) (q : Fin 1) :
    rowMax b X (ix2 a q) = (Finset.univ : Finset (Fin C)).fold max b (fun l => X (ix2 a l)) := rfl

variable {T M : Nat} {r0 : Nat} {hr : r0 + T ≤ M}

/-- The maximum along each row of a tile, kept as a T × 1 column, is the tile of the whole array's row maxima kept as
    an M × 1 column: row r0 + p of X is row p of x, entry by entry, and both folds start from the accumulator's value. -/
theorem laneMax {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.maximumf.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .maximumf [1] ⟨1, ![T]⟩ x acc h hφ hacc) hc)
      (rowMax (Ideal.ofBits .f32 acc) X) := by
  intro p q
  rw [RowOps.shapeCast_a_a1_apply _ hc p q, RowOps.rowMax_apply x acc h hφ hacc p, rowMax_apply]
  exact congrArg (fun f => Finset.fold max (Ideal.ofBits .f32 acc) f (Finset.univ : Finset (Fin C))) (funext fun k => hx p k)

section Pointwise
variable {C : Nat} {φ : FTy} {x y : (⟨2, ![T, C]⟩ : Shape).Idx → EReal} {X Y : (⟨2, ![M, C]⟩ : Shape).Idx → EReal}

/-- A kernel's vector difference, at the ideal values, subtracts entry by entry. -/
theorem vSub (hx : IsTile r0 hr x X) (hy : IsTile r0 hr y Y) :
    IsTile r0 hr (subf (F := Ideal) (φ := φ) x y) (fun i => X i - Y i) :=
  map₂ (fun a b => a - b) hx hy

/-- A kernel's vector exponential, at the ideal values, is the exponential entry by entry. -/
theorem vExp (hx : IsTile r0 hr x X) :
    IsTile r0 hr (exp (F := Ideal) (φ := φ) x) (fun i => Ideal.exp (X i)) :=
  map Ideal.exp hx

/-- A kernel's product with a splat of one value multiplies every entry by it. -/
theorem vScale (v : EReal) (hx : IsTile r0 hr x X) :
    IsTile r0 hr (mulf (F := Ideal) (φ := φ) x (broadcast ⟨2, ![T, C]⟩ v)) (fun i => X i * v) :=
  map (fun a => a * v) hx

end Pointwise

/-- A tile is a tile of anything the whole array equals. -/
theorem IsTile.congr {C : Nat} {x : (⟨2, ![T, C]⟩ : Shape).Idx → EReal} {X X' : (⟨2, ![M, C]⟩ : Shape).Idx → EReal}
    (hx : IsTile r0 hr x X) (e : X = X') : IsTile r0 hr x X' := e ▸ hx

/-! ## The host's spelling of the two columns -/

/-- A length-M vector broadcast along axis 0 into an M × 1 column reads, at (a, q), the vector at a. -/
theorem colOfVec_apply {M : Nat} (v : (⟨1, ![M]⟩ : Shape).Idx → EReal)
    (g : (⟨1, ![M]⟩ : Shape).BroadcastsInDim ⟨2, ![M, 1]⟩ ![0]) (a : Fin M) (q : Fin 1) :
    broadcastInDim ⟨2, ![M, 1]⟩ ![0] g v (ix2 a q) = v (ix1 a) := by
  refine broadcastInDim_apply _ g v (ix2 a q) (ix1 a) fun ax => ?_
  match ax with
  | ⟨0, _⟩ =>
    show a.val = if M = 1 then 0 else a.val
    split
    · have := a.isLt; omega
    · rfl

/-- The reduced index `a` of an M × C array with the coordinate `k` of the second axis put back is (a, k). -/
theorem lift_row2 {M C : Nat} (h : (⟨2, ![M, C]⟩ : Shape).Reduces [1] (⟨1, ![M]⟩ : Shape)) (a : Fin M)
    (k : Fin ((⟨2, ![M, C]⟩ : Shape).size 1)) : h.lift (ix1 a) k = ix2 a (⟨k.val, k.isLt⟩ : Fin C) := by
  funext c; apply Fin.ext
  fin_cases c <;> rfl

/-- The host's sum over the second axis from the initial value 0, kept as a column, is the column of row sums. -/
theorem hostRowSumCol {M C : Nat} {u : Shape} (X : FVec Ideal ⟨2, ![M, C]⟩ .f32) (init : u.Idx → Ideal .f32)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = 0)
    (g : (⟨1, ![M]⟩ : Shape).BroadcastsInDim ⟨2, ![M, 1]⟩ ![0]) :
    broadcastInDim ⟨2, ![M, 1]⟩ ![0] g (Host.reduceAdd X init h' hu) = rowSum X := by
  funext i
  obtain ⟨a, q, rfl⟩ : ∃ (a : Fin M) (q : Fin 1), i = ix2 a q := ⟨i 0, i 1, eq_ix2 i⟩
  rw [colOfVec_apply, rowSum_apply]
  show Ideal.hostReduceAdd h' X (init (Shape.Idx.first hu)) (ix1 a) = _
  rw [Ideal.hostReduceAdd_single h' h, hinit, zero_add]
  exact Finset.sum_congr rfl fun k _ => congrArg X (lift_row2 h a k)

/-- The host's maximum over the second axis from the initial value b, taken once more with b and kept as a column, is
    the column of row maxima from b. -/
theorem hostRowMaxCol {M C : Nat} {u : Shape} (X : FVec Ideal ⟨2, ![M, C]⟩ .f32) (init : u.Idx → Ideal .f32) (b : EReal)
    (h' : (⟨2, ![M, C]⟩ : Shape).ReducesTo [1] ⟨1, ![M]⟩) (h : (⟨2, ![M, C]⟩ : Shape).Reduces [1] ⟨1, ![M]⟩) (hu : 0 < u.numel)
    (hinit : init (Shape.Idx.first hu) = b) (w : FVec Ideal ⟨1, ![M]⟩ .f32) (hw : ∀ a, w a = b)
    (g : (⟨1, ![M]⟩ : Shape).BroadcastsInDim ⟨2, ![M, 1]⟩ ![0]) :
    broadcastInDim ⟨2, ![M, 1]⟩ ![0] g (maximumf (F := Ideal) w (Host.reduce FloatOps.maximumf X init h' hu)) = rowMax b X := by
  funext i
  obtain ⟨a, q, rfl⟩ : ∃ (a : Fin M) (q : Fin 1), i = ix2 a q := ⟨i 0, i 1, eq_ix2 i⟩
  rw [colOfVec_apply, rowMax_apply]
  show max (w (ix1 a)) (Host.reduce FloatOps.maximumf X init h' hu (ix1 a)) = _
  rw [hw, Host.reduce_eq_fold_single FloatOps.maximumf X init h' h hu (ix1 a), hinit]
  have e : (X ∘ h.lift (ix1 a)) = fun k => X (ix2 a (⟨k.val, k.isLt⟩ : Fin C)) := funext fun k => congrArg X (lift_row2 h a k)
  rw [e]
  exact RowOps.max_fold_max _ b _

end Cert.Tile

end
-- ==== Proof.LibHostLayers.lean ====
/-
  Row-wise layers of a dense network on whole M-row arrays of extended reals, written with the host's operations: a
  bias or scale vector repeated down the rows, a column repeated across the columns, the sum and the maximum of each
  row kept as a column (a reduce over the second axis followed by a broadcast into a column), a dense layer X · W + b,
  the mean over a row's features, a layer normalisation, a maximum with zero, the row-wise softmax, a row's Euclidean
  norm, a row divided by the larger of its norm and a tiny constant, and a row with its component along another row
  removed (one Gram–Schmidt step). Constants are broadcasts of rank-0 constants given by their f32 patterns. The side
  conditions of all these operations hold at every extent and are proved here once, so the definitions serve any
  batch size and feature count; a straight line of host operations computing the same values does so in the same words.
-/
import proofs.«133916_j43731357008179_2_alg».proof.Proof.LibTileMore

noncomputable section

namespace Cert.Spec

open Idealize.ShloMosaic Idealize.ShloMosaic.ValueIdx Cert.Tile

/-- An M × C array of extended reals (the ideal reading of an f32 array). -/
abbrev Mat (M C : Nat) : Type := FVec Ideal ⟨2, ![M, C]⟩ .f32
/-- A length-C vector of extended reals. -/
abbrev Vec1 (C : Nat) : Type := FVec Ideal ⟨1, ![C]⟩ .f32
/-- An M × K × C array of extended reals. -/
abbrev Cube (M K C : Nat) : Type := FVec Ideal ⟨3, ![M, K, C]⟩ .f32

/-! ## Side conditions, at every extent -/

theorem redTo (M C : Nat) : (⟨2, ![M, C]⟩ : Shape).ReducesTo [1] ⟨1, ![M]⟩ :=
  ⟨rfl, fun b => by match b with | ⟨0, _⟩ => rfl⟩

theorem red (M C : Nat) : (⟨2, ![M, C]⟩ : Shape).Reduces [1] ⟨1, ![M]⟩ :=
  ⟨rfl, Nat.one_pos, fun b => by match b with | ⟨0, _⟩ => rfl⟩

theorem numel0 : 0 < (⟨0, ![]⟩ : Shape).numel := by decide

/-- A length-C vector broadcasts along axis 1 into a 1 × C row. -/
theorem bidVecRow (C : Nat) : (⟨1, ![C]⟩ : Shape).BroadcastsInDim ⟨2, ![1, C]⟩ ![1] :=
  ⟨fun a b _ => Subsingleton.elim a b, fun a => by match a with | ⟨0, _⟩ => exact Or.inr rfl⟩

/-- A length-M vector broadcasts along axis 0 into an M × 1 column. -/
theorem bidVecCol (M : Nat) : (⟨1, ![M]⟩ : Shape).BroadcastsInDim ⟨2, ![M, 1]⟩ ![0] :=
  ⟨fun a b _ => Subsingleton.elim a b, fun a => by match a with | ⟨0, _⟩ => exact Or.inr rfl⟩

/-- A scalar broadcasts to a length-M vector. -/
theorem bidScalarVec (M : Nat) : (⟨0, ![]⟩ : Shape).BroadcastsInDim ⟨1, ![M]⟩ ![] :=
  ⟨fun a => a.elim0, fun a => a.elim0⟩

theorem inj02 : Function.Injective (![0, 2] : Fin 2 → Fin 3) := by decide
theorem inj012 : Function.Injective (![0, 1, 2] : Fin 3 → Fin 3) := by decide

/-- An M × C array broadcasts along axes (0, 2) into M × 1 × C. -/
theorem bidMid (M C : Nat) : (⟨2, ![M, C]⟩ : Shape).BroadcastsInDim ⟨3, ![M, 1, C]⟩ ![0, 2] :=
  ⟨inj02, fun a => by match a with | ⟨0, _⟩ => exact Or.inr rfl | ⟨1, _⟩ => exact Or.inr rfl⟩

/-- An M × 1 × C array broadcasts along (0, 1, 2) into M × K × C. -/
theorem bidMidRep (M K C : Nat) : (⟨3, ![M, 1, C]⟩ : Shape).BroadcastsInDim ⟨3, ![M, K, C]⟩ ![0, 1, 2] :=
  ⟨inj012, fun a => by match a with | ⟨0, _⟩ => exact Or.inr rfl | ⟨1, _⟩ => exact Or.inl rfl | ⟨2, _⟩ => exact Or.inr rfl⟩

variable {M : Nat}

/-! ## The building blocks, in the host's words -/

/-- The rank-0 constant of a 32-bit pattern. -/
def lit (b : BitVec 32) : FVec Ideal ⟨0, ![]⟩ .f32 := constant (F := Ideal) ⟨0, ![]⟩ .f32 b

/-- One value over an M × C array. -/
def splat (M C : Nat) (b : BitVec 32) : Mat M C := broadcastInDim ⟨2, ![M, C]⟩ ![] (bidScalar M C) (lit b)

/-- A length-C vector as a row, repeated down M rows. -/
def rows (M : Nat) {C : Nat} (b : Vec1 C) : Mat M C :=
  broadcastInDim ⟨2, ![M, C]⟩ ![0, 1] (bidRow M C) (broadcastInDim ⟨2, ![1, C]⟩ ![1] (bidVecRow C) b)

/-- An M × 1 column repeated across C columns. -/
def across {M : Nat} (C : Nat) (v : Mat M 1) : Mat M C := broadcastInDim ⟨2, ![M, C]⟩ ![0, 1] (bidCol M C) v

/-- The sum of each row, kept as an M × 1 column. -/
def sumCol {C : Nat} (X : Mat M C) : Mat M 1 :=
  broadcastInDim ⟨2, ![M, 1]⟩ ![0] (bidVecCol M)
    (Host.reduceAdd (F := Ideal) (axes := [1]) X (lit 0x00000000#32) (redTo M C) numel0)

/-- The maximum of each row from −∞, kept as an M × 1 column. -/
def maxCol {C : Nat} (X : Mat M C) : Mat M 1 :=
  broadcastInDim ⟨2, ![M, 1]⟩ ![0] (bidVecCol M)
    (maximumf (F := Ideal) (broadcastInDim ⟨1, ![M]⟩ ![] (bidScalarVec M) (lit 0xFF800000#32))
      (Host.reduce (axes := [1]) FloatOps.maximumf X (lit 0xFF800000#32) (redTo M C) numel0))

/-- X · W + b, the bias repeated down the rows. -/
def dense {K N : Nat} (X : Mat M K) (W : Mat K N) (b : Vec1 N) : Mat M N :=
  addf (Host.dotGeneral (F := Ideal) (DotDims.plain M K N) none X W) (rows M b)

/-- The mean of each row (the row sum divided by the count n, given as its f32 pattern), as a column. -/
def meanCol {C : Nat} (n : BitVec 32) (X : Mat M C) : Mat M 1 := Host.divf (sumCol X) (splat M 1 n)

/-- Each row with its mean removed. -/
def center {C : Nat} (n : BitVec 32) (X : Mat M C) : Mat M C := subf X (across C (meanCol n X))

/-- Layer normalisation over the features: (x − mean) · rsqrt(var + ε) · g + b, ε the f32 nearest 10⁻⁵. -/
def lnorm {C : Nat} (n : BitVec 32) (X : Mat M C) (g be : Vec1 C) : Mat M C :=
  addf (mulf (mulf (center n X)
      (across C (Host.rsqrt (addf (meanCol n (mulf (center n X) (center n X))) (splat M 1 0x3727C5AC#32)))))
    (rows M g)) (rows M be)

/-- The maximum with zero, entry by entry. -/
def relu {C : Nat} (X : Mat M C) : Mat M C := maximumf X (splat M C 0x00000000#32)

/-- exp (x − row maximum). -/
def expShift {C : Nat} (X : Mat M C) : Mat M C := Host.exp (subf X (across C (maxCol X)))

/-- The row-wise softmax. -/
def softmax {C : Nat} (X : Mat M C) : Mat M C := Host.divf (expShift X) (across C (sumCol (expShift X)))

/-- The Euclidean norm of each row, as a column. -/
def normCol {C : Nat} (v : Mat M C) : Mat M 1 := Host.sqrt (sumCol (mulf v v))

/-- Each row divided by the larger of its norm and the f32 nearest 10⁻¹². -/
def unit {C : Nat} (v : Mat M C) : Mat M C :=
  Host.divf v (across C (maximumf (normCol v) (splat M 1 0x2B8CBCCC#32)))

/-- v with its component along u removed, row by row: v − ⟨v, u⟩ u. -/
def strip {C : Nat} (v u : Mat M C) : Mat M C := subf v (mulf (across C (sumCol (mulf v u))) u)

/-- An M × C array as M × 1 × C. -/
def mid {C : Nat} (u : Mat M C) : Cube M 1 C := broadcastInDim ⟨3, ![M, 1, C]⟩ ![0, 2] (bidMid M C) u

end Cert.Spec

end
-- ==== Proof.LibTileLayers.lean ====
/-
  The network's layers on a tile of T rows, in a kernel's vector operations, against the same layers on the whole
  M-row arrays in the host's operations (LibHostLayers.lean). A tile x of an array X (rows [r0, r0 + T) of X) stays a tile
  through every layer, because every operation of such a network works row by row: a product with a weight matrix, a
  bias added to every row, the mean and the variance over a row's features, the row maximum and the row sum of the
  softmax, the inner product of two rows and a row's norm in the orthogonalisation. Each statement below says: if the
  operands are tiles of whole arrays, the kernel's expression on the tiles is the tile of the host's expression on the
  whole arrays.
-/
import proofs.«133916_j43731357008179_2_alg».proof.Proof.LibTileSoftmax
import proofs.«133916_j43731357008179_2_alg».proof.Proof.LibHostLayers

noncomputable section

namespace Cert.KSpec

open Idealize.ShloMosaic Idealize.ShloMosaic.ValueIdx Cert.Tile Cert.Spec

/-! ## Side conditions of the kernel's layout operations, at every extent -/

theorem scCol (T : Nat) : (⟨1, ![T]⟩ : Shape).ShapeCasts ⟨2, ![T, 1]⟩ := by
  show Shape.numel _ = Shape.numel _
  simp [Shape.numel, Fin.prod_univ_succ]

theorem scSelf (s : Shape) : s.ShapeCasts s := rfl

theorem bcCol (T C : Nat) : (⟨2, ![T, 1]⟩ : Shape).Broadcasts ⟨2, ![T, C]⟩ :=
  ⟨le_refl _, fun a => by
    match a with
    | ⟨0, _⟩ => exact Or.inr fun _ => rfl
    | ⟨1, _⟩ => exact Or.inl rfl⟩

theorem bcRow (T C : Nat) : (⟨2, ![1, C]⟩ : Shape).Broadcasts ⟨2, ![T, C]⟩ :=
  ⟨le_refl _, fun a => by
    match a with
    | ⟨0, _⟩ => exact Or.inl rfl
    | ⟨1, _⟩ => exact Or.inr fun _ => rfl⟩

/-- A tile of T rows and C columns. -/
abbrev Tl (T C : Nat) : Type := FVec Ideal ⟨2, ![T, C]⟩ .f32

variable {T : Nat}

/-! ## The layers on a tile, in the kernel's words -/

/-- The sum of each row of the tile, kept as a column. -/
def kSumCol {C : Nat} (x : Tl T C) : Tl T 1 :=
  shapeCast ⟨2, ![T, 1]⟩ (multiReduction (F := Ideal) .add [1] ⟨1, ![T]⟩ x 0x00000000#32 (red T C) (.inl rfl) rfl) (scCol T)

/-- The maximum of each row of the tile from −∞, kept as a column. -/
def kMaxCol {C : Nat} (x : Tl T C) : Tl T 1 :=
  shapeCast ⟨2, ![T, 1]⟩ (multiReduction (F := Ideal) .maximumf [1] ⟨1, ![T]⟩ x 0xFF800000#32 (red T C) (.inl rfl) rfl) (scCol T)

/-- One f32 value over the tile. -/
def kSplat (T C : Nat) (b : BitVec 32) : Tl T C := broadcast ⟨2, ![T, C]⟩ (Scalar.ofBits (F := Ideal) .f32 b)

/-- A column repeated across C columns. -/
def kAcross (C : Nat) (v : Tl T 1) : Tl T C := broadcastTo ⟨2, ![T, C]⟩ v (bcCol T C)

/-- A 1 × C row (passed through a cast to its own shape) repeated down the tile's rows. -/
def kRows (T : Nat) {C : Nat} (r : Tl 1 C) : Tl T C :=
  broadcastTo ⟨2, ![T, C]⟩ (shapeCast ⟨2, ![1, C]⟩ r (scSelf _)) (bcRow T C)

def kMeanCol {C : Nat} (n : BitVec 32) (x : Tl T C) : Tl T 1 := divf (kSumCol x) (kSplat T 1 n)

def kCenter {C : Nat} (n : BitVec 32) (x : Tl T C) : Tl T C := subf x (kAcross C (kMeanCol n x))

def kLnorm {C : Nat} (n : BitVec 32) (x : Tl T C) (g be : Tl 1 C) : Tl T C :=
  addf (mulf (mulf (kCenter n x)
      (kAcross C (rsqrt (addf (kMeanCol n (mulf (kCenter n x) (kCenter n x))) (kSplat T 1 0x3727C5AC#32)))))
    (kRows T g)) (kRows T be)

def kRelu {C : Nat} (x : Tl T C) : Tl T C := maximumf x (kSplat T C 0x00000000#32)

/-- x − its row maximum. -/
def kShift {C : Nat} (x : Tl T C) : Tl T C := subf x (kAcross C (kMaxCol x))

/-- exp s divided by its row sum. -/
def kNormExp {C : Nat} (s : Tl T C) : Tl T C := divf (exp s) (kAcross C (kSumCol (exp s)))

/-- A row sum of squares, as a column, to a unit vector: v / max (sqrt ss) tiny. -/
def kUnitOf {C : Nat} (v : Tl T C) (ss : Tl T 1) : Tl T C :=
  divf v (kAcross C (maximumf (sqrt ss) (kSplat T 1 0x2B8CBCCC#32)))

def kUnit {C : Nat} (v : Tl T C) : Tl T C := kUnitOf v (kSumCol (mulf v v))

def kStrip {C : Nat} (v u : Tl T C) : Tl T C := subf v (mulf (kAcross C (kSumCol (mulf v u))) u)

/-! ## Each layer keeps tiles -/

variable {M : Nat} {r0 : Nat} {hr : r0 + T ≤ M}

theorem lit_zero : lit 0x00000000#32 (Shape.Idx.first numel0) = 0 := Ideal.ofBits_zero_f32

theorem sumCol_eq {C : Nat} (X : Mat M C) : sumCol X = rowSum X :=
  hostRowSumCol X (lit 0x00000000#32) (redTo M C) (red M C) numel0 lit_zero (bidVecCol M)

theorem maxCol_eq {C : Nat} (X : Mat M C) : maxCol X = rowMax (Ideal.ofBits .f32 0xFF800000#32) X :=
  hostRowMaxCol X (lit 0xFF800000#32) (Ideal.ofBits .f32 0xFF800000#32) (redTo M C) (red M C) numel0 rfl _
    (fun a => broadcastInDim_apply _ (bidScalarVec M) (lit 0xFF800000#32) a ix0 fun ax => ax.elim0) (bidVecCol M)

theorem tSumCol {C : Nat} {x : Tl T C} {X : Mat M C} (hx : IsTile r0 hr x X) : IsTile r0 hr (kSumCol x) (sumCol X) :=
  (laneSum 0x00000000#32 (red T C) (.inl rfl) rfl (scCol T) hx).congr (sumCol_eq X).symm

theorem tMaxCol {C : Nat} {x : Tl T C} {X : Mat M C} (hx : IsTile r0 hr x X) : IsTile r0 hr (kMaxCol x) (maxCol X) :=
  (laneMax 0xFF800000#32 (red T C) (.inl rfl) rfl (scCol T) hx).congr (maxCol_eq X).symm

theorem tSplat (C : Nat) (b : BitVec 32) : IsTile r0 hr (kSplat T C b) (splat M C b) := vSplat b (bidScalar M C)

theorem tAcross (C : Nat) {v : Tl T 1} {V : Mat M 1} (hv : IsTile r0 hr v V) : IsTile r0 hr (kAcross C v) (across C V) :=
  colRep (bcCol T C) (bidCol M C) hv

/-- A length-C vector b, as the kernel finds it (cast to a 1 × C row), repeated down the tile's rows, is the tile of b
    repeated down the whole array's rows. -/
theorem tRows {C : Nat} (b : Vec1 C) (h1 : (⟨1, ![C]⟩ : Shape).ShapeCasts ⟨2, ![1, C]⟩) :
    IsTile r0 hr (kRows T (shapeCast ⟨2, ![1, C]⟩ b h1)) (rows M b) := by
  unfold kRows
  rw [shapeCast_self]
  exact bias b h1 (bcRow T C) (bidVecRow C) (bidRow M C)

theorem tMeanCol {C : Nat} (n : BitVec 32) {x : Tl T C} {X : Mat M C} (hx : IsTile r0 hr x X) :
    IsTile r0 hr (kMeanCol n x) (meanCol n X) := vDiv (tSumCol hx) (tSplat 1 n)

theorem tCenter {C : Nat} (n : BitVec 32) {x : Tl T C} {X : Mat M C} (hx : IsTile r0 hr x X) :
    IsTile r0 hr (kCenter n x) (center n X) := vSub hx (tAcross C (tMeanCol n hx))

theorem tRsqrt {C : Nat} {x : Tl T C} {X : Mat M C} (hx : IsTile r0 hr x X) : IsTile r0 hr (rsqrt x) (Host.rsqrt X) :=
  map Ideal.rsqrt hx

theorem tSqrt {C : Nat} {x : Tl T C} {X : Mat M C} (hx : IsTile r0 hr x X) : IsTile r0 hr (sqrt x) (Host.sqrt X) :=
  map Ideal.sqrt hx

theorem tExp {C : Nat} {x : Tl T C} {X : Mat M C} (hx : IsTile r0 hr x X) : IsTile r0 hr (exp x) (Host.exp X) :=
  map Ideal.exp hx

theorem tLnorm {C : Nat} (n : BitVec 32) {x : Tl T C} {X : Mat M C} (hx : IsTile r0 hr x X) (g be : Vec1 C)
    (h1 : (⟨1, ![C]⟩ : Shape).ShapeCasts ⟨2, ![1, C]⟩) :
    IsTile r0 hr (kLnorm n x (shapeCast ⟨2, ![1, C]⟩ g h1) (shapeCast ⟨2, ![1, C]⟩ be h1)) (lnorm n X g be) :=
  vAdd (vMul (vMul (tCenter n hx)
      (tAcross C (tRsqrt (vAdd (tMeanCol n (vMul (tCenter n hx) (tCenter n hx))) (tSplat 1 0x3727C5AC#32)))))
    (tRows g h1)) (tRows be h1)

theorem tRelu {C : Nat} {x : Tl T C} {X : Mat M C} (hx : IsTile r0 hr x X) : IsTile r0 hr (kRelu x) (relu X) :=
  vMax hx (tSplat C 0x00000000#32)

theorem tShift {C : Nat} {x : Tl T C} {X : Mat M C} (hx : IsTile r0 hr x X) :
    IsTile r0 hr (kShift x) (subf X (across C (maxCol X))) := vSub hx (tAcross C (tMaxCol hx))

theorem tNormExp {C : Nat} {s : Tl T C} {S : Mat M C} (hs : IsTile r0 hr s S) :
    IsTile r0 hr (kNormExp s) (Host.divf (Host.exp S) (across C (sumCol (Host.exp S)))) :=
  vDiv (tExp hs) (tAcross C (tSumCol (tExp hs)))

/-- The softmax of the whole array is exp of the shifted array divided by its row sums. -/
theorem tSoftmax {C : Nat} {x : Tl T C} {X : Mat M C} (hx : IsTile r0 hr x X) :
    IsTile r0 hr (kNormExp (kShift x)) (softmax X) := tNormExp (tShift hx)

theorem tUnitOf {C : Nat} {v : Tl T C} {V : Mat M C} {ss : Tl T 1} (hv : IsTile r0 hr v V)
    (hss : IsTile r0 hr ss (sumCol (mulf V V))) : IsTile r0 hr (kUnitOf v ss) (unit V) :=
  vDiv hv (tAcross C (vMax (tSqrt hss) (tSplat 1 0x2B8CBCCC#32)))

theorem tUnit {C : Nat} {v : Tl T C} {V : Mat M C} (hv : IsTile r0 hr v V) : IsTile r0 hr (kUnit v) (unit V) :=
  tUnitOf hv (tSumCol (vMul hv hv))

theorem tStrip {C : Nat} {v u : Tl T C} {V U : Mat M C} (hv : IsTile r0 hr v V) (hu : IsTile r0 hr u U) :
    IsTile r0 hr (kStrip v u) (strip V U) := vSub hv (vMul (tAcross C (tSumCol (vMul hv hu))) hu)

/-- The product of a tile with a weight matrix (as the kernel finds it, cast to its own shape) plus a bias row is the
    tile of the whole array's dense layer. -/
theorem tDense {K N : Nat} {φ₁ φ₂ : FTy} {x : (⟨2, ![T, K]⟩ : Shape).Idx → EReal} {X : Mat M K}
    (d : DotDims ⟨2, ![T, K]⟩ ⟨2, ![K, N]⟩ ⟨2, ![T, N]⟩) (hd : d = DotDims.plain T K N) (W : Mat K N) (b : Vec1 N)
    (h1 : (⟨1, ![N]⟩ : Shape).ShapeCasts ⟨2, ![1, N]⟩) (hx : IsTile r0 hr x X) :
    IsTile r0 hr
      (addf (F := Ideal) (Idealize.ShloMosaic.matmul (F := Ideal) (φ₁ := φ₁) (φ₂ := φ₂) d none x
          (shapeCast ⟨2, ![K, N]⟩ W (scSelf _)) (constant ⟨2, ![T, N]⟩ .f32 0x00000000#32))
        (kRows T (shapeCast ⟨2, ![1, N]⟩ b h1)))
      (dense X W b) := by
  rw [shapeCast_self]
  exact vAdd (vMatmul d hd none W hx) (tRows b h1)

end Cert.KSpec

end
-- ==== Proof.LibLogSoftmax.lean ====
/-
  The row-wise log-softmax on whole arrays and on row tiles.

  For an M × C array Z of extended reals, log-softmax Z subtracts from every entry its row's maximum (taken from −∞)
  and then the logarithm of the row's sum of exponentials of those differences. Written with the host's operations on
  the whole array (row maximum and row sum kept as M × 1 columns and repeated across the columns), and with a
  kernel's vector operations on a T-row tile (a lane maximum, then the larger of −∞ and it; a lane sum; casts of the
  reduced vectors to T × 1 columns; broadcasts back): the tile's log-softmax is the tile of the whole array's, since
  every step keeps row tiles.
-/
import proofs.«133916_j43731357008179_2_alg».proof.Proof.LibTileLayers

noncomputable section

namespace Cert.Gcn

open Idealize.ShloMosaic Idealize.ShloMosaic.ValueIdx Cert.Tile Cert.Spec Cert.KSpec

/-- The row-wise log-softmax: z minus its row maximum, minus the logarithm of that row's sum of exponentials. -/
def logSoftmax {M C : Nat} (Z : Mat M C) : Mat M C :=
  subf (subf Z (across C (maxCol Z))) (across C (Host.log (sumCol (Host.exp (subf Z (across C (maxCol Z)))))))

section Tiles

variable {T M : Nat} {r0 : Nat} {hr : r0 + T ≤ M}

/-- The larger of −∞ and a row maximum taken from −∞ is that row maximum. -/
theorem max_init {C : Nat} (x : Tl T C) :
    maximumf (F := Ideal) (broadcast ⟨1, ![T]⟩ (Scalar.ofBits (F := Ideal) .f32 0xFF800000#32))
        (multiReduction (F := Ideal) .maximumf [1] ⟨1, ![T]⟩ x 0xFF800000#32 (red T C) (.inl rfl) rfl)
      = multiReduction (F := Ideal) .maximumf [1] ⟨1, ![T]⟩ x 0xFF800000#32 (red T C) (.inl rfl) rfl := by
  funext i
  obtain ⟨p, rfl⟩ : ∃ p : Fin T, i = ix1 p := ⟨i 0, eq_ix1 i⟩
  show max (Ideal.ofBits .f32 0xFF800000#32) (multiReduction (F := Ideal) .maximumf [1] ⟨1, ![T]⟩ x 0xFF800000#32 (red T C) (.inl rfl) rfl (ix1 p)) = _
  rw [RowOps.rowMax_apply x 0xFF800000#32 (red T C) (.inl rfl) rfl p]
  exact RowOps.max_fold_max _ _ _

/-- A tile's row maxima, the larger of −∞ and the lane maximum kept as a column, are the tile of the whole array's. -/
theorem tMaxColInit {C : Nat} {x : Tl T C} {X : Mat M C} (hx : IsTile r0 hr x X) :
    IsTile r0 hr
      (shapeCast ⟨2, ![T, 1]⟩ (maximumf (F := Ideal) (broadcast ⟨1, ![T]⟩ (Scalar.ofBits (F := Ideal) .f32 0xFF800000#32))
        (multiReduction (F := Ideal) .maximumf [1] ⟨1, ![T]⟩ x 0xFF800000#32 (red T C) (.inl rfl) rfl)) (scCol T))
      (maxCol X) := by
  rw [max_init]
  exact tMaxCol hx

/-- The logarithm, entry by entry, keeps tiles. -/
theorem tLog {C : Nat} {x : Tl T C} {X : Mat M C} (hx : IsTile r0 hr x X) : IsTile r0 hr (log x) (Host.log X) :=
  map Ideal.log hx

/-- The log-softmax of a tile, in a kernel's vector operations, is the tile of the whole array's. -/
theorem tLogSoftmax {C : Nat} {z : Tl T C} {Z : Mat M C} (hz : IsTile r0 hr z Z) :
    IsTile r0 hr
      (subf (subf z (kAcross C (shapeCast ⟨2, ![T, 1]⟩ (maximumf (F := Ideal) (broadcast ⟨1, ![T]⟩ (Scalar.ofBits (F := Ideal) .f32 0xFF800000#32))
          (multiReduction (F := Ideal) .maximumf [1] ⟨1, ![T]⟩ z 0xFF800000#32 (red T C) (.inl rfl) rfl)) (scCol T))))
        (kAcross C (log (kSumCol (exp (subf z (kAcross C (shapeCast ⟨2, ![T, 1]⟩ (maximumf (F := Ideal) (broadcast ⟨1, ![T]⟩ (Scalar.ofBits (F := Ideal) .f32 0xFF800000#32))
          (multiReduction (F := Ideal) .maximumf [1] ⟨1, ![T]⟩ z 0xFF800000#32 (red T C) (.inl rfl) rfl)) (scCol T)))))))))
      (logSoftmax Z) :=
  vSub (vSub hz (tAcross C (tMaxColInit hz))) (tAcross C (tLog (tSumCol (tExp (vSub hz (tAcross C (tMaxColInit hz)))))))

end Tiles

end Cert.Gcn

end
-- ==== Proof.LibGatherRows.lean ====
/-
  Row gathers read at an index.

  `x[idx]` on the leading axis of an array lowers to a `stablehlo.gather` that collapses the leading operand axis,
  takes the whole of the remaining axis (if there is one) as the offset axis, and reads one start index per result
  row off a trailing unit axis of the index array.  Result element `(r, q)` is then the operand's element
  `(clamp (idx r), q)`: the start index read as a signed integer and clamped into `[0, N − 1]`, as the gather
  clamps every start index.  Three shapes of this are read here, every extent arbitrary:
    • a matrix `[N, C]` at indices `[R, 1]`, result `[R, C]`            (`gather_rows_apply`);
    • a vector `[N]` at indices `[R, 1]`, result `[R]`                  (`gather_elts_apply`);
    • a matrix `[N, C]` at indices `[A, B, 1]`, result `[A, B, C]`      (`gather_rows3_apply`).
  The dimension records are built from their well-formedness proof, so a printed record of the same lists is
  the record here by `rfl`.
-/
import Idealize.ShloMosaic.Lib.ValueIdx

noncomputable section

namespace Cert.GatherRows

open Idealize.ShloMosaic Idealize.ShloMosaic.ValueIdx

variable {α : Type}

/-- A start index word read signed and clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) : (clampRow N hN v).val = min v.toInt.toNat (N - 1) := rfl

/-! ## A matrix at `[R, 1]` indices -/

/-- The row gather's dimension numbers for an operand `[N, C]`, start indices `[R, 1]`, result `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element `(r, q)` of the row gather is the operand's `(clamp (idx (r, 0)), q)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q) = x (ix2 (clampRow N hN (idx (ix2 r (0 : Fin 1)))) q) := by
  unfold Host.gather
  congr 1
  funext a
  refine Fin.ext ?_
  match a with
  | ⟨0, _⟩ =>
    show (rowsDims N C R wf).start (ix2 r q) idx 0 + (rowsDims N C R wf).batchCoord (ix2 r q) 0
      + (rowsDims N C R wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r q) idx 1 + (rowsDims N C R wf).batchCoord (ix2 r q) 1
      + (rowsDims N C R wf).offCoord (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-! ## A vector at `[R, 1]` indices -/

/-- The element gather's dimension numbers for an operand `[N]`, start indices `[R, 1]`, result `[R]`. -/
abbrev eltsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the element gather is the operand's `clamp (idx (r, 0))`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (eltsDims N R wf) x idx (ix1 r) = x (ix1 (clampRow N hN (idx (ix2 r (0 : Fin 1))))) := by
  unfold Host.gather
  congr 1
  funext a
  refine Fin.ext ?_
  match a with
  | ⟨0, _⟩ =>
    show (eltsDims N R wf).start (ix1 r) idx 0 + (eltsDims N R wf).batchCoord (ix1 r) 0
      + (eltsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (eltsDims N R wf).startIndexMap from List.mem_singleton.mpr rfl)]
    have hsi : (eltsDims N R wf).siIdx (ix1 r) ⟨List.idxOf (0 : Fin 1) (eltsDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## A matrix at `[A, B, 1]` indices -/

/-- The row gather's dimension numbers for an operand `[N, C]`, start indices `[A, B, 1]`, result `[A, B, C]`. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Result element `(a, b, q)` of the row gather is the operand's `(clamp (idx (a, b, 0)), q)`. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rows3Dims N C A B wf) x idx (ix3 a b q) = x (ix2 (clampRow N hN (idx (ix3 a b (0 : Fin 1)))) q) := by
  unfold Host.gather
  congr 1
  funext e
  refine Fin.ext ?_
  match e with
  | ⟨0, _⟩ =>
    show (rows3Dims N C A B wf).start (ix3 a b q) idx 0 + (rows3Dims N C A B wf).batchCoord (ix3 a b q) 0
      + (rows3Dims N C A B wf).offCoord (ix3 a b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b q) ⟨List.idxOf (0 : Fin 2) (rows3Dims N C A B wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rows3Dims N C A B wf).start (ix3 a b q) idx 1 + (rows3Dims N C A B wf).batchCoord (ix3 a b q) 1
      + (rows3Dims N C A B wf).offCoord (ix3 a b q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.GatherRows

end
-- ==== Proof.LibScatterScale.lean ====
/-
  A scatter-add against a scaling of its result.

  On the extended reals the host's accumulating scatter is, at each operand element i, the operand's value plus the
  sum of the updates that land on i.  Multiplying that sum by a factor c distributes over it when c is a real
  number that is not negative (at a negative factor, or at an infinite one, an infinite sum of mixed signs breaks
  the law).  So if the operand is 0 at i and every update that lands on i is, on the other side, the same update
  times c, the two scatters differ at i by the factor c.

  For the scatter of rows  z.at[idx].add(u)  — operand [N, C], one start index per update row in an [E, 1] index
  array, updates [E, C] — an update (e, f) that lands on (v, f') has v as its start index read signed.  With a row
  gather on the way in, this gives the identity behind a normalised neighbourhood sum: scaling row v of the result
  by D v, and every gathered row by D at its source, is the same as scaling each message by D (source) · D (target)
  before the sum, for any D whose entries are non-negative reals.
-/
import Idealize.ShloMosaic.PureOps.Ideal.Laws
import Idealize.ShloMosaic.Lib.ValueIdx
import Idealize.ShloMosaic.Lib.Pipeline.Value
import proofs.«133916_j43731357008179_2_alg».proof.Proof.LibGatherRows

noncomputable section

namespace Cert.ScatterScale

open Idealize.ShloMosaic Idealize.ShloMosaic.ValueIdx Cert.GatherRows

/-- A finite sum times a non-negative real factor is the sum of the products. -/
theorem sum_mul_of_nonneg {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- Into an operand that is 0 at i: if every update landing on i is, on the primed side, the update times c, the
    primed scatter-add at i is the other one times c. -/
theorem scatterAdd_scale {s si su : Shape} (d : ScatterDims s si su) {w : Nat} (x : s.Idx → EReal) (idx : IVec si w)
    (u u' : su.Idx → EReal) (i : s.Idx) (c : EReal) (h0 : 0 ≤ c) (ht : c ≠ ⊤) (hx : x i = 0)
    (hu : ∀ j, d.resultIdx? j idx = some i → u' j = u j * c) :
    Ideal.hostScatterAdd d x idx u' i = Ideal.hostScatterAdd d x idx u i * c := by
  unfold Ideal.hostScatterAdd
  rw [hx, zero_add, zero_add, sum_mul_of_nonneg _ _ h0 ht]
  exact Finset.sum_congr rfl fun j hj => hu j (Finset.mem_filter.mp hj).2

/-- The dimension numbers of a scatter of rows: operand [N, C], start indices [E, 1], updates [E, C]. -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element of row e that lands on an operand element of row v has v as its start index, read signed. -/
theorem land_row {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) (v : Fin N) (f' : Fin C)
    (h : (rowsDims N C E wf).resultIdx? (ix2 e f) idx = some (ix2 v f')) :
    (idx (ix2 e (0 : Fin 1))).toInt = (v.val : Int) := by
  unfold ScatterDims.resultIdx? at h
  split at h
  · rename_i hall
    have h0 := hall 0
    have hi := congrFun (Option.some.inj h) 0
    have hi0 : ((rowsDims N C E wf).start (ix2 e f) idx 0 + (rowsDims N C E wf).window (ix2 e f) 0).toNat = v.val :=
      congrArg Fin.val hi
    have hs : (rowsDims N C E wf).start (ix2 e f) idx 0 = (idx (ix2 e (0 : Fin 1))).toInt := by
      unfold ScatterDims.start
      rw [dif_pos (show (0 : Fin 2) ∈ (rowsDims N C E wf).scatterDimsToOperandDims from List.mem_singleton.mpr rfl)]
      have hsi : (rowsDims N C E wf).siIdx (ix2 e f) ⟨List.idxOf (0 : Fin 2) (rowsDims N C E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw : (rowsDims N C E wf).window (ix2 e f) 0 = 0 := by
      unfold ScatterDims.window
      rw [dif_neg (show (0 : Fin 2) ∉ (rowsDims N C E wf).sKept from fun hm =>
        (List.mem_filter.mp hm).2 |> fun hn => by simp at hn)]
    rw [hs, hw] at hi0 h0
    omega
  · cases h

end Cert.ScatterScale

end
-- ==== Proof.LibNormSum.lean ====
/-
  A normalised neighbourhood sum, two ways.

  Nodes 0 … N − 1 carry feature rows H (an [N, C] array) and a weight D per node; each of E edges names a source
  row (a start index array SI, read signed and clamped as a gather reads it) and a target row (DI, read signed and
  not clamped, as a scatter reads it; an edge whose target lies outside [0, N) is dropped).  The sum over the edges
  into a node v of  H (source) · D (source) · D (v)  can be computed with the factor D (v) taken out of the sum:
  scale row u of H by D u once, gather, scatter-add, and scale row v of the result by D v; or with the factor
  D (source) · D (target) multiplied into every message before the scatter-add, the target's weight gathered at the
  target index array DW, which names v on every edge that lands on v.  The two agree whenever every D v is a
  non-negative real: the products are reassociated edge by edge, and the common factor D v distributes over the sum
  at v.
-/
import proofs.«133916_j43731357008179_2_alg».proof.Proof.LibScatterScale

noncomputable section

namespace Cert.NormSum

open Idealize.ShloMosaic Idealize.ShloMosaic.ValueIdx

/-- An [N, 1] column repeated across C columns reads the column's entry of the row. -/
theorem col_apply {N C : Nat} (gc : (⟨2, ![N, 1]⟩ : Shape).BroadcastsInDim ⟨2, ![N, C]⟩ ![0, 1])
    (Dc : (⟨2, ![N, 1]⟩ : Shape).Idx → EReal) (v : Fin N) (f : Fin C) :
    broadcastInDim ⟨2, ![N, C]⟩ ![0, 1] gc Dc (ix2 v f) = Dc (ix2 v (0 : Fin 1)) := by
  have hv := v.isLt
  refine broadcastInDim_apply _ gc _ (ix2 v f) (ix2 v (0 : Fin 1)) fun a => ?_
  match a with
  | ⟨0, _⟩ =>
    show v.val = if N = 1 then 0 else v.val
    split <;> omega
  | ⟨1, _⟩ => rfl

/-- An [E] vector viewed as an [E, 1] column and repeated across C columns reads the vector's entry of the row. -/
theorem vec_col_apply {E C : Nat} (b1 : (⟨1, ![E]⟩ : Shape).BroadcastsInDim ⟨2, ![E, 1]⟩ ![0])
    (b2 : (⟨2, ![E, 1]⟩ : Shape).BroadcastsInDim ⟨2, ![E, C]⟩ ![0, 1])
    (X : (⟨1, ![E]⟩ : Shape).Idx → EReal) (e : Fin E) (f : Fin C) :
    broadcastInDim ⟨2, ![E, C]⟩ ![0, 1] b2 (broadcastInDim ⟨2, ![E, 1]⟩ ![0] b1 X) (ix2 e f) = X (ix1 e) := by
  have he := e.isLt
  refine (col_apply b2 _ e f).trans ?_
  refine broadcastInDim_apply _ b1 X (ix2 e (0 : Fin 1)) (ix1 e) fun a => ?_
  match a with
  | ⟨0, _⟩ =>
    show e.val = if E = 1 then 0 else e.val
    split <;> omega

/-- The factor of the target row taken out of the sum, against the factor of source and target multiplied into every
    message. -/
theorem scaled_sum {N C E : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (H Z : (⟨2, ![N, C]⟩ : Shape).Idx → EReal) (D : (⟨1, ![N]⟩ : Shape).Idx → EReal)
    (Dc : (⟨2, ![N, 1]⟩ : Shape).Idx → EReal)
    (hDc : ∀ v : Fin N, Dc (ix2 v (0 : Fin 1)) = D (ix1 v))
    (hD : ∀ v : Fin N, 0 ≤ D (ix1 v) ∧ D (ix1 v) ≠ ⊤)
    (hZ : ∀ i, Z i = 0)
    (SI DI DW : IVec ⟨2, ![E, 1]⟩ 32)
    (hDW : ∀ (e : Fin E) (v : Fin N), (DI (ix2 e (0 : Fin 1))).toInt = (v.val : Int) →
      GatherRows.clampRow N hN (DW (ix2 e (0 : Fin 1))) = v)
    (gc : (⟨2, ![N, 1]⟩ : Shape).BroadcastsInDim ⟨2, ![N, C]⟩ ![0, 1])
    (b1 : (⟨1, ![E]⟩ : Shape).BroadcastsInDim ⟨2, ![E, 1]⟩ ![0])
    (b2 : (⟨2, ![E, 1]⟩ : Shape).BroadcastsInDim ⟨2, ![E, C]⟩ ![0, 1]) :
    mulf (F := Ideal) (φ := .f32)
        (Host.scatterAdd (F := Ideal) (φ := .f32) (ScatterScale.rowsDims N C E wfS) Z DI
          (Host.gather (GatherRows.rowsDims N C E wfG)
            (mulf (F := Ideal) (φ := .f32) H (broadcastInDim ⟨2, ![N, C]⟩ ![0, 1] gc Dc)) SI))
        (broadcastInDim ⟨2, ![N, C]⟩ ![0, 1] gc Dc)
      = Host.scatterAdd (F := Ideal) (φ := .f32) (ScatterScale.rowsDims N C E wfS) Z DI
          (mulf (F := Ideal) (φ := .f32) (Host.gather (GatherRows.rowsDims N C E wfG) H SI)
            (broadcastInDim ⟨2, ![E, C]⟩ ![0, 1] b2 (broadcastInDim ⟨2, ![E, 1]⟩ ![0] b1
              (mulf (F := Ideal) (φ := .f32) (Host.gather (GatherRows.eltsDims N E wfG1) D SI)
                (Host.gather (GatherRows.eltsDims N E wfG1) D DW))))) := by
  funext i
  obtain ⟨v, f, rfl⟩ : ∃ (v : Fin N) (f : Fin C), i = ix2 v f := ⟨i 0, i 1, eq_ix2 i⟩
  have hc : ∀ (u : Fin N) (g : Fin C), broadcastInDim ⟨2, ![N, C]⟩ ![0, 1] gc Dc (ix2 u g) = D (ix1 u) :=
    fun u g => (col_apply gc Dc u g).trans (hDc u)
  rw [mulf_apply, hc]
  symm
  refine ScatterScale.scatterAdd_scale _ Z DI _ _ (ix2 v f) (D (ix1 v)) (hD v).1 (hD v).2 (hZ _) fun j hj => ?_
  obtain ⟨e, f', rfl⟩ : ∃ (e : Fin E) (f' : Fin C), j = ix2 e f' := ⟨j 0, j 1, eq_ix2 j⟩
  have hv := ScatterScale.land_row wfS DI e f' v f hj
  rw [mulf_apply, GatherRows.gather_rows_apply hN, GatherRows.gather_rows_apply hN, mulf_apply, hc, vec_col_apply,
    mulf_apply, GatherRows.gather_elts_apply hN, GatherRows.gather_elts_apply hN, hDW e v hv, mul_assoc]

end Cert.NormSum

end
-- ==== Proof.LayerSpec.lean ====
/-
  A two-layer graph convolution on whole arrays, two ways.

  Nodes carry feature rows; every edge (and a self-loop per node) sends its source's row to its target. With
  D v = (number of edges into v)^(-1/2), one layer is  out v = Σ_{edges u → v} H u · (D u · D v) + b  with H = X · W.
  The per-edge factor D u · D v can be split: scale row u of H by D u once, sum the gathered rows at each target, and
  scale row v of the sum by D v. The whole-array functions below are the second spelling, cut where a program
  computing it would cut it (a scaled product; relu of a scaled sum plus bias, into the next scaled product; the
  row-wise log-softmax of a scaled sum plus bias). `layers_eq` says the composition of the three, with the
  neighbourhood sums between them, is the first spelling — whenever every D v is a non-negative real — by moving the
  factor of the target row into the sum, once per layer.
-/
import proofs.«133916_j43731357008179_2_alg».proof.Proof.LibLogSoftmax
import proofs.«133916_j43731357008179_2_alg».proof.Proof.LibNormSum

noncomputable section

namespace Cert.Gcn

open Idealize.ShloMosaic Idealize.ShloMosaic.ValueIdx Cert.Tile Cert.Spec Cert.KSpec

/-- X · W with row v scaled by the column entry D v. -/
def G0 {M : Nat} (X : Mat M 512) (W : Mat 512 16) (Dc : Mat M 1) : Mat M 16 :=
  mulf (Host.dotGeneral (F := Ideal) (DotDims.plain M 512 16) none X W) (across 16 Dc)

/-- relu (A · D + b) · W with row v scaled by D v. -/
def G1 {M : Nat} (A : Mat M 16) (Dc : Mat M 1) (b : Vec1 16) (W : Mat 16 40) : Mat M 40 :=
  mulf (Host.dotGeneral (F := Ideal) (DotDims.plain M 16 40) none (relu (addf (mulf A (across 16 Dc)) (rows M b))) W)
    (across 40 Dc)

/-- log-softmax of A · D + b. -/
def G2 {M : Nat} (A : Mat M 40) (Dc : Mat M 1) (b : Vec1 40) : Mat M 40 :=
  logSoftmax (addf (mulf A (across 40 Dc)) (rows M b))

/-- One layer's neighbourhood sum with the factor D (source) · D (target) multiplied into every message. -/
def edgeSum {N C E : Nat}
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (b1 : (⟨1, ![E]⟩ : Shape).BroadcastsInDim ⟨2, ![E, 1]⟩ ![0])
    (b2 : (⟨2, ![E, 1]⟩ : Shape).BroadcastsInDim ⟨2, ![E, C]⟩ ![0, 1])
    (Z H : Mat N C) (D : Vec1 N) (SI DI DW : IVec ⟨2, ![E, 1]⟩ 32) : Mat N C :=
  Host.scatterAdd (F := Ideal) (φ := .f32) (ScatterScale.rowsDims N C E wfS) Z DI
    (mulf (F := Ideal) (φ := .f32) (Host.gather (GatherRows.rowsDims N C E wfG) H SI)
      (broadcastInDim ⟨2, ![E, C]⟩ ![0, 1] b2 (broadcastInDim ⟨2, ![E, 1]⟩ ![0] b1
        (mulf (F := Ideal) (φ := .f32) (Host.gather (GatherRows.eltsDims N E wfG1) D SI)
          (Host.gather (GatherRows.eltsDims N E wfG1) D DW)))))

/-- The same sum with the source's factor scaled into the rows first and the target's factor taken out. -/
def nodeSum {N C E : Nat}
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (Z Hs : Mat N C) (SI DI : IVec ⟨2, ![E, 1]⟩ 32) : Mat N C :=
  Host.scatterAdd (F := Ideal) (φ := .f32) (ScatterScale.rowsDims N C E wfS) Z DI
    (Host.gather (GatherRows.rowsDims N C E wfG) Hs SI)

/-- The two-layer network with the node weights scaled into the rows and out of the sums is the network with the
    per-edge weights, when every node weight is a non-negative real. -/
theorem layers_eq {N E : Nat} (hN : 0 < N)
    (wfS16 : ScatterDims.WF ⟨2, ![N, 16]⟩ ⟨2, ![E, 1]⟩ ⟨2, ![E, 16]⟩ [1] [0] [0] 1)
    (wfG16 : GatherDims.WF ⟨2, ![N, 16]⟩ ⟨2, ![E, 1]⟩ ⟨2, ![E, 16]⟩ [1] [0] [] [0] [] 1 ![1, 16])
    (wfS40 : ScatterDims.WF ⟨2, ![N, 40]⟩ ⟨2, ![E, 1]⟩ ⟨2, ![E, 40]⟩ [1] [0] [0] 1)
    (wfG40 : GatherDims.WF ⟨2, ![N, 40]⟩ ⟨2, ![E, 1]⟩ ⟨2, ![E, 40]⟩ [1] [0] [] [0] [] 1 ![1, 40])
    (wfG1 : GatherDims.WF ⟨1, ![N]⟩ ⟨2, ![E, 1]⟩ ⟨1, ![E]⟩ [] [0] [] [0] [] 1 ![1])
    (b1 : (⟨1, ![E]⟩ : Shape).BroadcastsInDim ⟨2, ![E, 1]⟩ ![0])
    (b16 : (⟨2, ![E, 1]⟩ : Shape).BroadcastsInDim ⟨2, ![E, 16]⟩ ![0, 1])
    (b40 : (⟨2, ![E, 1]⟩ : Shape).BroadcastsInDim ⟨2, ![E, 40]⟩ ![0, 1])
    (X : Mat N 512) (W1 : Mat 512 16) (c1 : Vec1 16) (W2 : Mat 16 40) (c2 : Vec1 40)
    (Z16 : Mat N 16) (Z40 : Mat N 40) (hZ16 : ∀ i, Z16 i = 0) (hZ40 : ∀ i, Z40 i = 0)
    (D : Vec1 N) (Dc : Mat N 1)
    (hDc : ∀ v : Fin N, Dc (ix2 v (0 : Fin 1)) = D (ix1 v))
    (hD : ∀ v : Fin N, 0 ≤ D (ix1 v) ∧ D (ix1 v) ≠ ⊤)
    (SI DI DW : IVec ⟨2, ![E, 1]⟩ 32)
    (hDW : ∀ (e : Fin E) (v : Fin N), (DI (ix2 e (0 : Fin 1))).toInt = (v.val : Int) →
      GatherRows.clampRow N hN (DW (ix2 e (0 : Fin 1))) = v) :
    G2 (nodeSum wfS40 wfG40 Z40 (G1 (nodeSum wfS16 wfG16 Z16 (G0 X W1 Dc) SI DI) Dc c1 W2) SI DI) Dc c2
      = logSoftmax (addf
          (edgeSum wfS40 wfG40 wfG1 b1 b40 Z40
            (Host.dotGeneral (F := Ideal) (DotDims.plain N 16 40) none
              (relu (addf
                (edgeSum wfS16 wfG16 wfG1 b1 b16 Z16 (Host.dotGeneral (F := Ideal) (DotDims.plain N 512 16) none X W1) D SI DI DW)
                (rows N c1))) W2) D SI DI DW)
          (rows N c2)) := by
  unfold G2 G1 G0 nodeSum edgeSum across
  rw [NormSum.scaled_sum hN wfS16 wfG16 wfG1 _ Z16 D Dc hDc hD hZ16 SI DI DW hDW (bidCol N 16) b1 b16,
    NormSum.scaled_sum hN wfS40 wfG40 wfG1 _ Z40 D Dc hDc hD hZ40 SI DI DW hDW (bidCol N 40) b1 b40]

end Cert.Gcn

end
-- ==== Proof.PayTiles.lean ====
/-
  The three kernel bodies on row tiles.

  Each region of the program works on 5000 rows of its node arrays at a time. What a body stores is, row for row,
  the matching rows of one function of the whole arrays: the first layer's products X · W scaled row v by the node
  weight D v; the second layer's products of relu (A · D + b) with its weight matrix, scaled the same way; and the
  row-wise log-softmax of A · D + b. Each body is a composition of operations that keep row tiles, so its stored
  tile is the tile of the whole-array function.
-/
import proofs.«133916_j43731357008179_2_alg».proof.Proof.Gen.KernelIdeal.Skeleton
import proofs.«133916_j43731357008179_2_alg».proof.Proof.LayerSpec

noncomputable section

namespace Cert.KernelIdeal.Layers

open Cert.KernelIdeal Cert.KernelIdeal.Gen Idealize.ShloMosaic Idealize.ShloMosaic.ValueIdx Cert.Tile Cert.Spec Cert.KSpec Cert.Gcn

/-- The first body's stored tile. -/
theorem pay0_tile {r0 : Nat} {hr : r0 + 5000 ≤ 100000} {x : Tl 5000 512} {X : Mat 100000 512} {dc : Tl 5000 1} {Dc : Mat 100000 1}
    (W : Mat 512 16) (hx : IsTile r0 hr x X) (hd : IsTile r0 hr dc Dc) :
    IsTile r0 hr (k0_pay1 (F := Ideal) x W dc) (G0 X W Dc) := by
  unfold k0_pay1 G0
  exact vMul (vMatmul _ rfl none W hx) (tAcross 16 (castSelf _ hd))

/-- The second body's stored tile; the bias reaches the body as a 1 × 16 row. -/
theorem pay1_tile {r0 : Nat} {hr : r0 + 5000 ≤ 100000} {a : Tl 5000 16} {A : Mat 100000 16} {dc : Tl 5000 1} {Dc : Mat 100000 1}
    (b : Vec1 16) (h1 : (⟨1, ![16]⟩ : Shape).ShapeCasts ⟨2, ![1, 16]⟩) (W : Mat 16 40)
    (ha : IsTile r0 hr a A) (hd : IsTile r0 hr dc Dc) :
    IsTile r0 hr (k1_pay1 (F := Ideal) a dc (shapeCast ⟨2, ![1, 16]⟩ b h1) W dc) (G1 A Dc b W) := by
  unfold k1_pay1 G1
  exact vMul (vMatmul _ rfl none W (tRelu (vAdd (vMul (castSelf _ ha) (tAcross 16 (castSelf _ hd))) (tRows b h1))))
    (tAcross 40 (castSelf _ hd))

/-- The third body's stored tile; the bias reaches the body as a 1 × 40 row. -/
theorem pay2_tile {r0 : Nat} {hr : r0 + 5000 ≤ 100000} {a : Tl 5000 40} {A : Mat 100000 40} {dc : Tl 5000 1} {Dc : Mat 100000 1}
    (b : Vec1 40) (h1 : (⟨1, ![40]⟩ : Shape).ShapeCasts ⟨2, ![1, 40]⟩)
    (ha : IsTile r0 hr a A) (hd : IsTile r0 hr dc Dc) :
    IsTile r0 hr (k2_pay1 (F := Ideal) a dc (shapeCast ⟨2, ![1, 40]⟩ b h1)) (G2 A Dc b) := by
  unfold k2_pay1 G2
  exact tLogSoftmax (vAdd (vMul (castSelf _ ha) (tAcross 40 (castSelf _ hd))) (tRows b h1))

end Cert.KernelIdeal.Layers

end
-- ==== Proof.Region0.lean ====
/-
  Region 0 of the program as one function of the arrays it finds.

  The first region multiplies the node features by the first weight matrix and scales row v by the node weight D v.
  The region's grid has 20 points; point t stages rows [5000 t, 5000 t + 5000) of every node array and the whole of
  every small operand, and writes back the same rows of the output. The body's stored tile is the tile of the
  whole-array function, so what point t writes back is block t of that function; the 20 blocks cover the output
  array, which therefore ends holding the function of the arrays as the region found them.
-/
import proofs.«133916_j43731357008179_2_alg».proof.Proof.Gen.KernelIdeal.Frame
import proofs.«133916_j43731357008179_2_alg».proof.Proof.PayTiles
import Idealize.ShloMosaic.Lib.Pipeline.Value

set_option maxRecDepth 16384

noncomputable section

namespace Cert.KernelIdeal.Region0

open Cert.KernelIdeal Cert.KernelIdeal.Gen Cert.KernelIdeal.Layers Cert.Gcn Idealize.ShloMosaic Idealize.ShloMosaic.TcCoe
open Idealize.ShloMosaic.ValueIdx Cert.Tile Cert.Spec Cert.KSpec Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a node array's block index is (t, 0), a small operand's (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Window 0's block at point t is rows [5000 t, 5000 t + 5000) of its array. -/
theorem blk_tile_0 (c : Dev nD) (t : Fin cfg0.N) (hr : t.val * 5000 + 5000 ≤ 100000) :
    IsTile (T := 5000) (M := 100000) (C := 512) (t.val * 5000) hr (iblk0 V c 0 t) (V c main_arg0) := by
  intro p l
  obtain ⟨e0r, e0c, e1r, e1c, e2r, e2c, e3r, e3c⟩ := idx_facts t
  show V c main_arg0 (((cfg0.win 0).blk t).view.emb (ix2 p l)) = V c main_arg0 (ix2 ⟨t.val * 5000 + p.val, by omega⟩ l)
  refine congrArg _ (funext fun a => Fin.ext ?_)
  match a with
  | ⟨0, _⟩ => show win0_0.index t (0 : Fin 2) * 5000 + 1 * p.val = t.val * 5000 + p.val; rw [e0r]; omega
  | ⟨1, _⟩ => show win0_0.index t (1 : Fin 2) * 512 + 1 * l.val = l.val; rw [e0c]; omega

/-- Window 1's block at every point is its whole array. -/
theorem blk_whole_1 (c : Dev nD) (t : Fin cfg0.N) : iblk0 V c 1 t = V c main_arg2 := by
  funext j
  obtain ⟨e0r, e0c, e1r, e1c, e2r, e2c, e3r, e3c⟩ := idx_facts t
  show V c main_arg2 (((cfg0.win 1).blk t).view.emb j) = V c main_arg2 j
  refine congrArg _ (funext fun a => Fin.ext ?_)
  match a with
  | ⟨0, _⟩ => show win0_1.index t (0 : Fin 2) * 512 + 1 * (j 0).val = (j 0).val; rw [e1r]; omega
  | ⟨1, _⟩ => show win0_1.index t (1 : Fin 2) * 16 + 1 * (j 1).val = (j 1).val; rw [e1c]; omega

/-- Window 2's block at point t is rows [5000 t, 5000 t + 5000) of its array. -/
theorem blk_tile_2 (c : Dev nD) (t : Fin cfg0.N) (hr : t.val * 5000 + 5000 ≤ 100000) :
    IsTile (T := 5000) (M := 100000) (C := 1) (t.val * 5000) hr (iblk0 V c 2 t) (V c main_v14) := by
  intro p l
  obtain ⟨e0r, e0c, e1r, e1c, e2r, e2c, e3r, e3c⟩ := idx_facts t
  show V c main_v14 (((cfg0.win 2).blk t).view.emb (ix2 p l)) = V c main_v14 (ix2 ⟨t.val * 5000 + p.val, by omega⟩ l)
  refine congrArg _ (funext fun a => Fin.ext ?_)
  match a with
  | ⟨0, _⟩ => show win0_2.index t (0 : Fin 2) * 5000 + 1 * p.val = t.val * 5000 + p.val; rw [e2r]; omega
  | ⟨1, _⟩ => show win0_2.index t (1 : Fin 2) * 1 + 1 * l.val = l.val; rw [e2c]; omega

/-- What point t writes back is block t of the whole-array function. -/
theorem flushed_eq (c : Dev nD)  (t : Fin cfg0.N) :
    (dat0 V c).flushed 3 t = ((cfg0.win 3).blk t).view.read (Elt Ideal) (G0 (V c main_arg0) (V c main_arg2) (V c main_v14)) := by
  have hN : cfg0.N = 20 := N_0
  have ht := t.isLt
  have hr : t.val * 5000 + 5000 ≤ 100000 := by omega
  show (cfg0.win 3).cut (grid0.coords t) ((dat0 V c).after 3 t) = _
  rw [after0_3]
  unfold out0_3
  rw [View.canon_unit_zero hz]
  simp only [View.ld_unit_zero (S := S5000x512) hz, View.ld_unit_zero (S := S512x16) hz, View.ld_unit_zero (S := S5000x1) hz]
  obtain ⟨e0r, e0c, e1r, e1c, e2r, e2c, e3r, e3c⟩ := idx_facts t
  funext j
  obtain ⟨p, l, rfl⟩ : ∃ (p : Fin 5000) (l : Fin 16), j = ix2 p l := ⟨j 0, j 1, eq_ix2 j⟩
  show k0_pay1 (F := Ideal) (iblk0 V c 0 t) (iblk0 V c 1 t) (iblk0 V c 2 t) (ix2 p l) = (G0 (V c main_arg0) (V c main_arg2) (V c main_v14)) (((cfg0.win 3).blk t).view.emb (ix2 p l))
  rw [blk_whole_1 V c t]
  refine (pay0_tile (hr := hr) (V c main_arg2) (blk_tile_0 V c t hr) (blk_tile_2 V c t hr) p l).trans (congrArg _ (funext fun a => Fin.ext ?_))
  match a with
  | ⟨0, _⟩ => show t.val * 5000 + p.val = win0_3.index t (0 : Fin 2) * 5000 + 1 * p.val; rw [e3r]; omega
  | ⟨1, _⟩ => show l.val = win0_3.index t (1 : Fin 2) * 16 + 1 * l.val; rw [e3c]; omega

/-- An index of the output array is in point t's block iff each coordinate is in the block's range on its axis. -/
theorem mem_blk (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v15).slice (win0_3.rect t)).set ↔ _
  rw [View.set_slice_whole, Rect.mem_set_unit]
  exact Iff.rfl

/-- Row r of the output is written by point r / 5000. -/
theorem cover (i : S100000x16.Idx) : ∃ t : Fin cfg0.N, (cfg0.win 3).flush t = true ∧ i ∈ ((cfg0.win 3).blk t).view.set := by
  have hN : cfg0.N = 20 := N_0
  have hi0 : (i 0).val < 100000 := (i 0).isLt
  have hi1 : (i 1).val < 16 := (i 1).isLt
  have ht : (i 0).val / 5000 < cfg0.N := by omega
  obtain ⟨e0r, e0c, e1r, e1c, e2r, e2c, e3r, e3c⟩ := idx_facts (⟨(i 0).val / 5000, ht⟩ : Fin cfg0.N)
  have f0 : win0_3.index (⟨(i 0).val / 5000, ht⟩ : Fin cfg0.N) (0 : Fin 2) = (i 0).val / 5000 := e3r
  refine ⟨⟨(i 0).val / 5000, ht⟩, flush0_3 _, ?_⟩
  rw [mem_blk]
  intro a
  match a with
  | ⟨0, _⟩ => show win0_3.index (⟨(i 0).val / 5000, ht⟩ : Fin cfg0.N) (0 : Fin 2) * 5000 ≤ (i 0).val ∧ (i 0).val < win0_3.index (⟨(i 0).val / 5000, ht⟩ : Fin cfg0.N) (0 : Fin 2) * 5000 + 5000; omega
  | ⟨1, _⟩ => show win0_3.index (⟨(i 0).val / 5000, ht⟩ : Fin cfg0.N) (1 : Fin 2) * 16 ≤ (i 1).val ∧ (i 1).val < win0_3.index (⟨(i 0).val / 5000, ht⟩ : Fin cfg0.N) (1 : Fin 2) * 16 + 16; omega

/-- The output array after the region: the whole-array function of the arrays the region found. -/
theorem final (c : Dev nD)  :
    (dat0 V c).arrAt 3 cfg0.N = (G0 (V c main_arg0) (V c main_arg2) (V c main_v14)) :=
  (dat0 V c).arrAt_eq_of_cover 3 _ (fun t _ => flushed_eq V c  t) cover

end Cert.KernelIdeal.Region0

end
-- ==== Proof.Region1.lean ====
/-
  Region 1 of the program as one function of the arrays it finds.

  The second region adds the first layer's bias to the aggregated rows scaled by the node weights, takes the maximum with zero, multiplies by the second weight matrix and scales row v by D v again; the bias reaches it as a 1 × 16 row `b`.
  The region's grid has 20 points; point t stages rows [5000 t, 5000 t + 5000) of every node array and the whole of
  every small operand, and writes back the same rows of the output. The body's stored tile is the tile of the
  whole-array function, so what point t writes back is block t of that function; the 20 blocks cover the output
  array, which therefore ends holding the function of the arrays as the region found them.
-/
import proofs.«133916_j43731357008179_2_alg».proof.Proof.Gen.KernelIdeal.Frame
import proofs.«133916_j43731357008179_2_alg».proof.Proof.PayTiles
import Idealize.ShloMosaic.Lib.Pipeline.Value

set_option maxRecDepth 16384

noncomputable section

namespace Cert.KernelIdeal.Region1

open Cert.KernelIdeal Cert.KernelIdeal.Gen Cert.KernelIdeal.Layers Cert.Gcn Idealize.ShloMosaic Idealize.ShloMosaic.TcCoe
open Idealize.ShloMosaic.ValueIdx Cert.Tile Cert.Spec Cert.KSpec Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a node array's block index is (t, 0), a small operand's (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows [5000 t, 5000 t + 5000) of its array. -/
theorem blk_tile_0 (c : Dev nD) (t : Fin cfg1.N) (hr : t.val * 5000 + 5000 ≤ 100000) :
    IsTile (T := 5000) (M := 100000) (C := 16) (t.val * 5000) hr (iblk1 V c 0 t) (V c main_v25) := by
  intro p l
  obtain ⟨e0r, e0c, e1r, e1c, e2r, e2c, e3r, e3c, e4r, e4c⟩ := idx_facts t
  show V c main_v25 (((cfg1.win 0).blk t).view.emb (ix2 p l)) = V c main_v25 (ix2 ⟨t.val * 5000 + p.val, by omega⟩ l)
  refine congrArg _ (funext fun a => Fin.ext ?_)
  match a with
  | ⟨0, _⟩ => show win1_0.index t (0 : Fin 2) * 5000 + 1 * p.val = t.val * 5000 + p.val; rw [e0r]; omega
  | ⟨1, _⟩ => show win1_0.index t (1 : Fin 2) * 16 + 1 * l.val = l.val; rw [e0c]; omega

/-- Window 1's block at point t is rows [5000 t, 5000 t + 5000) of its array. -/
theorem blk_tile_1 (c : Dev nD) (t : Fin cfg1.N) (hr : t.val * 5000 + 5000 ≤ 100000) :
    IsTile (T := 5000) (M := 100000) (C := 1) (t.val * 5000) hr (iblk1 V c 1 t) (V c main_v14) := by
  intro p l
  obtain ⟨e0r, e0c, e1r, e1c, e2r, e2c, e3r, e3c, e4r, e4c⟩ := idx_facts t
  show V c main_v14 (((cfg1.win 1).blk t).view.emb (ix2 p l)) = V c main_v14 (ix2 ⟨t.val * 5000 + p.val, by omega⟩ l)
  refine congrArg _ (funext fun a => Fin.ext ?_)
  match a with
  | ⟨0, _⟩ => show win1_1.index t (0 : Fin 2) * 5000 + 1 * p.val = t.val * 5000 + p.val; rw [e1r]; omega
  | ⟨1, _⟩ => show win1_1.index t (1 : Fin 2) * 1 + 1 * l.val = l.val; rw [e1c]; omega

/-- Window 2's block at every point is its whole array. -/
theorem blk_whole_2 (c : Dev nD) (t : Fin cfg1.N) : iblk1 V c 2 t = V c main_v26 := by
  funext j
  obtain ⟨e0r, e0c, e1r, e1c, e2r, e2c, e3r, e3c, e4r, e4c⟩ := idx_facts t
  show V c main_v26 (((cfg1.win 2).blk t).view.emb j) = V c main_v26 j
  refine congrArg _ (funext fun a => Fin.ext ?_)
  match a with
  | ⟨0, _⟩ => show win1_2.index t (0 : Fin 2) * 1 + 1 * (j 0).val = (j 0).val; rw [e2r]; omega
  | ⟨1, _⟩ => show win1_2.index t (1 : Fin 2) * 16 + 1 * (j 1).val = (j 1).val; rw [e2c]; omega

/-- Window 3's block at every point is its whole array. -/
theorem blk_whole_3 (c : Dev nD) (t : Fin cfg1.N) : iblk1 V c 3 t = V c main_arg4 := by
  funext j
  obtain ⟨e0r, e0c, e1r, e1c, e2r, e2c, e3r, e3c, e4r, e4c⟩ := idx_facts t
  show V c main_arg4 (((cfg1.win 3).blk t).view.emb j) = V c main_arg4 j
  refine congrArg _ (funext fun a => Fin.ext ?_)
  match a with
  | ⟨0, _⟩ => show win1_3.index t (0 : Fin 2) * 16 + 1 * (j 0).val = (j 0).val; rw [e3r]; omega
  | ⟨1, _⟩ => show win1_3.index t (1 : Fin 2) * 40 + 1 * (j 1).val = (j 1).val; rw [e3c]; omega

/-- What point t writes back is block t of the whole-array function. -/
theorem flushed_eq (c : Dev nD) (b : Vec1 16) (h1 : (⟨1, ![16]⟩ : Shape).ShapeCasts ⟨2, ![1, 16]⟩) (hb : V c main_v26 = shapeCast ⟨2, ![1, 16]⟩ b h1) (t : Fin cfg1.N) :
    (dat1 V c).flushed 4 t = ((cfg1.win 4).blk t).view.read (Elt Ideal) (G1 (V c main_v25) (V c main_v14) b (V c main_arg4)) := by
  have hN : cfg1.N = 20 := N_1
  have ht := t.isLt
  have hr : t.val * 5000 + 5000 ≤ 100000 := by omega
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz, View.ld_unit_zero (S := S16x40) hz]
  obtain ⟨e0r, e0c, e1r, e1c, e2r, e2c, e3r, e3c, e4r, e4c⟩ := idx_facts t
  funext j
  obtain ⟨p, l, rfl⟩ : ∃ (p : Fin 5000) (l : Fin 40), j = ix2 p l := ⟨j 0, j 1, eq_ix2 j⟩
  show k1_pay1 (F := Ideal) (iblk1 V c 0 t) (iblk1 V c 1 t) (iblk1 V c 2 t) (iblk1 V c 3 t) (iblk1 V c 1 t) (ix2 p l) = (G1 (V c main_v25) (V c main_v14) b (V c main_arg4)) (((cfg1.win 4).blk t).view.emb (ix2 p l))
  rw [blk_whole_2 V c t, blk_whole_3 V c t, hb]
  refine (pay1_tile (hr := hr) b h1 (V c main_arg4) (blk_tile_0 V c t hr) (blk_tile_1 V c t hr) p l).trans (congrArg _ (funext fun a => Fin.ext ?_))
  match a with
  | ⟨0, _⟩ => show t.val * 5000 + p.val = win1_4.index t (0 : Fin 2) * 5000 + 1 * p.val; rw [e4r]; omega
  | ⟨1, _⟩ => show l.val = win1_4.index t (1 : Fin 2) * 40 + 1 * l.val; rw [e4c]; omega

/-- An index of the output array is in point t's block iff each coordinate is in the block's range on its axis. -/
theorem mem_blk (t : Fin cfg1.N) (i : S100000x40.Idx) :
    i ∈ ((cfg1.win 4).blk t).view.set ↔ ∀ a : Fin 2, win1_4.index t a * S5000x40.size a ≤ (i a).val ∧ (i a).val < win1_4.index t a * S5000x40.size a + S5000x40.size a := by
  show i ∈ ((View.whole main_v27).slice (win1_4.rect t)).set ↔ _
  rw [View.set_slice_whole, Rect.mem_set_unit]
  exact Iff.rfl

/-- Row r of the output is written by point r / 5000. -/
theorem cover (i : S100000x40.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 40 := (i 1).isLt
  have ht : (i 0).val / 5000 < cfg1.N := by omega
  obtain ⟨e0r, e0c, e1r, e1c, e2r, e2c, e3r, e3c, e4r, e4c⟩ := idx_facts (⟨(i 0).val / 5000, ht⟩ : Fin cfg1.N)
  have f0 : win1_4.index (⟨(i 0).val / 5000, ht⟩ : Fin cfg1.N) (0 : Fin 2) = (i 0).val / 5000 := e4r
  refine ⟨⟨(i 0).val / 5000, ht⟩, flush1_4 _, ?_⟩
  rw [mem_blk]
  intro a
  match a with
  | ⟨0, _⟩ => show win1_4.index (⟨(i 0).val / 5000, ht⟩ : Fin cfg1.N) (0 : Fin 2) * 5000 ≤ (i 0).val ∧ (i 0).val < win1_4.index (⟨(i 0).val / 5000, ht⟩ : Fin cfg1.N) (0 : Fin 2) * 5000 + 5000; omega
  | ⟨1, _⟩ => show win1_4.index (⟨(i 0).val / 5000, ht⟩ : Fin cfg1.N) (1 : Fin 2) * 40 ≤ (i 1).val ∧ (i 1).val < win1_4.index (⟨(i 0).val / 5000, ht⟩ : Fin cfg1.N) (1 : Fin 2) * 40 + 40; omega

/-- The output array after the region: the whole-array function of the arrays the region found. -/
theorem final (c : Dev nD) (b : Vec1 16) (h1 : (⟨1, ![16]⟩ : Shape).ShapeCasts ⟨2, ![1, 16]⟩) (hb : V c main_v26 = shapeCast ⟨2, ![1, 16]⟩ b h1) :
    (dat1 V c).arrAt 4 cfg1.N = (G1 (V c main_v25) (V c main_v14) b (V c main_arg4)) :=
  (dat1 V c).arrAt_eq_of_cover 4 _ (fun t _ => flushed_eq V c b h1 hb t) cover

end Cert.KernelIdeal.Region1

end
-- ==== Proof.Region2.lean ====
/-
  Region 2 of the program as one function of the arrays it finds.

  The third region adds the second layer's bias to the aggregated rows scaled by the node weights and takes the row-wise log-softmax; the bias reaches it as a 1 × 40 row `b`.
  The region's grid has 20 points; point t stages rows [5000 t, 5000 t + 5000) of every node array and the whole of
  every small operand, and writes back the same rows of the output. The body's stored tile is the tile of the
  whole-array function, so what point t writes back is block t of that function; the 20 blocks cover the output
  array, which therefore ends holding the function of the arrays as the region found them.
-/
import proofs.«133916_j43731357008179_2_alg».proof.Proof.Gen.KernelIdeal.Frame
import proofs.«133916_j43731357008179_2_alg».proof.Proof.PayTiles
import Idealize.ShloMosaic.Lib.Pipeline.Value

set_option maxRecDepth 16384

noncomputable section

namespace Cert.KernelIdeal.Region2

open Cert.KernelIdeal Cert.KernelIdeal.Gen Cert.KernelIdeal.Layers Cert.Gcn Idealize.ShloMosaic Idealize.ShloMosaic.TcCoe
open Idealize.ShloMosaic.ValueIdx Cert.Tile Cert.Spec Cert.KSpec Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a node array's block index is (t, 0), a small operand's (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Window 0's block at point t is rows [5000 t, 5000 t + 5000) of its array. -/
theorem blk_tile_0 (c : Dev nD) (t : Fin cfg2.N) (hr : t.val * 5000 + 5000 ≤ 100000) :
    IsTile (T := 5000) (M := 100000) (C := 40) (t.val * 5000) hr (iblk2 V c 0 t) (V c main_v37) := by
  intro p l
  obtain ⟨e0r, e0c, e1r, e1c, e2r, e2c, e3r, e3c⟩ := idx_facts t
  show V c main_v37 (((cfg2.win 0).blk t).view.emb (ix2 p l)) = V c main_v37 (ix2 ⟨t.val * 5000 + p.val, by omega⟩ l)
  refine congrArg _ (funext fun a => Fin.ext ?_)
  match a with
  | ⟨0, _⟩ => show win2_0.index t (0 : Fin 2) * 5000 + 1 * p.val = t.val * 5000 + p.val; rw [e0r]; omega
  | ⟨1, _⟩ => show win2_0.index t (1 : Fin 2) * 40 + 1 * l.val = l.val; rw [e0c]; omega

/-- Window 1's block at point t is rows [5000 t, 5000 t + 5000) of its array. -/
theorem blk_tile_1 (c : Dev nD) (t : Fin cfg2.N) (hr : t.val * 5000 + 5000 ≤ 100000) :
    IsTile (T := 5000) (M := 100000) (C := 1) (t.val * 5000) hr (iblk2 V c 1 t) (V c main_v14) := by
  intro p l
  obtain ⟨e0r, e0c, e1r, e1c, e2r, e2c, e3r, e3c⟩ := idx_facts t
  show V c main_v14 (((cfg2.win 1).blk t).view.emb (ix2 p l)) = V c main_v14 (ix2 ⟨t.val * 5000 + p.val, by omega⟩ l)
  refine congrArg _ (funext fun a => Fin.ext ?_)
  match a with
  | ⟨0, _⟩ => show win2_1.index t (0 : Fin 2) * 5000 + 1 * p.val = t.val * 5000 + p.val; rw [e1r]; omega
  | ⟨1, _⟩ => show win2_1.index t (1 : Fin 2) * 1 + 1 * l.val = l.val; rw [e1c]; omega

/-- Window 2's block at every point is its whole array. -/
theorem blk_whole_2 (c : Dev nD) (t : Fin cfg2.N) : iblk2 V c 2 t = V c main_v38 := by
  funext j
  obtain ⟨e0r, e0c, e1r, e1c, e2r, e2c, e3r, e3c⟩ := idx_facts t
  show V c main_v38 (((cfg2.win 2).blk t).view.emb j) = V c main_v38 j
  refine congrArg _ (funext fun a => Fin.ext ?_)
  match a with
  | ⟨0, _⟩ => show win2_2.index t (0 : Fin 2) * 1 + 1 * (j 0).val = (j 0).val; rw [e2r]; omega
  | ⟨1, _⟩ => show win2_2.index t (1 : Fin 2) * 40 + 1 * (j 1).val = (j 1).val; rw [e2c]; omega

/-- What point t writes back is block t of the whole-array function. -/
theorem flushed_eq (c : Dev nD) (b : Vec1 40) (h1 : (⟨1, ![40]⟩ : Shape).ShapeCasts ⟨2, ![1, 40]⟩) (hb : V c main_v38 = shapeCast ⟨2, ![1, 40]⟩ b h1) (t : Fin cfg2.N) :
    (dat2 V c).flushed 3 t = ((cfg2.win 3).blk t).view.read (Elt Ideal) (G2 (V c main_v37) (V c main_v14) b) := by
  have hN : cfg2.N = 20 := N_2
  have ht := t.isLt
  have hr : t.val * 5000 + 5000 ≤ 100000 := by omega
  show (cfg2.win 3).cut (grid2.coords t) ((dat2 V c).after 3 t) = _
  rw [after2_3]
  unfold out2_3
  rw [View.canon_unit_zero hz]
  simp only [View.ld_unit_zero (S := S5000x40) hz, View.ld_unit_zero (S := S5000x1) hz, View.ld_unit_zero (S := S1x40) hz]
  obtain ⟨e0r, e0c, e1r, e1c, e2r, e2c, e3r, e3c⟩ := idx_facts t
  funext j
  obtain ⟨p, l, rfl⟩ : ∃ (p : Fin 5000) (l : Fin 40), j = ix2 p l := ⟨j 0, j 1, eq_ix2 j⟩
  show k2_pay1 (F := Ideal) (iblk2 V c 0 t) (iblk2 V c 1 t) (iblk2 V c 2 t) (ix2 p l) = (G2 (V c main_v37) (V c main_v14) b) (((cfg2.win 3).blk t).view.emb (ix2 p l))
  rw [blk_whole_2 V c t, hb]
  refine (pay2_tile (hr := hr) b h1 (blk_tile_0 V c t hr) (blk_tile_1 V c t hr) p l).trans (congrArg _ (funext fun a => Fin.ext ?_))
  match a with
  | ⟨0, _⟩ => show t.val * 5000 + p.val = win2_3.index t (0 : Fin 2) * 5000 + 1 * p.val; rw [e3r]; omega
  | ⟨1, _⟩ => show l.val = win2_3.index t (1 : Fin 2) * 40 + 1 * l.val; rw [e3c]; omega

/-- An index of the output array is in point t's block iff each coordinate is in the block's range on its axis. -/
theorem mem_blk (t : Fin cfg2.N) (i : S100000x40.Idx) :
    i ∈ ((cfg2.win 3).blk t).view.set ↔ ∀ a : Fin 2, win2_3.index t a * S5000x40.size a ≤ (i a).val ∧ (i a).val < win2_3.index t a * S5000x40.size a + S5000x40.size a := by
  show i ∈ ((View.whole main_v39).slice (win2_3.rect t)).set ↔ _
  rw [View.set_slice_whole, Rect.mem_set_unit]
  exact Iff.rfl

/-- Row r of the output is written by point r / 5000. -/
theorem cover (i : S100000x40.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 40 := (i 1).isLt
  have ht : (i 0).val / 5000 < cfg2.N := by omega
  obtain ⟨e0r, e0c, e1r, e1c, e2r, e2c, e3r, e3c⟩ := idx_facts (⟨(i 0).val / 5000, ht⟩ : Fin cfg2.N)
  have f0 : win2_3.index (⟨(i 0).val / 5000, ht⟩ : Fin cfg2.N) (0 : Fin 2) = (i 0).val / 5000 := e3r
  refine ⟨⟨(i 0).val / 5000, ht⟩, flush2_3 _, ?_⟩
  rw [mem_blk]
  intro a
  match a with
  | ⟨0, _⟩ => show win2_3.index (⟨(i 0).val / 5000, ht⟩ : Fin cfg2.N) (0 : Fin 2) * 5000 ≤ (i 0).val ∧ (i 0).val < win2_3.index (⟨(i 0).val / 5000, ht⟩ : Fin cfg2.N) (0 : Fin 2) * 5000 + 5000; omega
  | ⟨1, _⟩ => show win2_3.index (⟨(i 0).val / 5000, ht⟩ : Fin cfg2.N) (1 : Fin 2) * 40 ≤ (i 1).val ∧ (i 1).val < win2_3.index (⟨(i 0).val / 5000, ht⟩ : Fin cfg2.N) (1 : Fin 2) * 40 + 40; omega

/-- The output array after the region: the whole-array function of the arrays the region found. -/
theorem final (c : Dev nD) (b : Vec1 40) (h1 : (⟨1, ![40]⟩ : Shape).ShapeCasts ⟨2, ![1, 40]⟩) (hb : V c main_v38 = shapeCast ⟨2, ![1, 40]⟩ b h1) :
    (dat2 V c).arrAt 3 cfg2.N = (G2 (V c main_v37) (V c main_v14) b) :=
  (dat2 V c).arrAt_eq_of_cover 3 _ (fun t _ => flushed_eq V c b h1 hb t) cover

end Cert.KernelIdeal.Region2

end
-- ==== Proof.KernelValue.lean ====
/-
  The idealized kernel's result as one function of the argument arrays.

  The program's host operations build, from the edge list, the source and target index vectors with a self-loop per
  node appended, the in-degree of every node (a scatter-add of ones), and the node weights rsqrt (max (degree, 1)) as
  a column. Region 0 leaves X · W₁ scaled by the weights; a gather along the sources and a scatter-add along the
  targets sum it over each node's incoming edges; region 1 leaves the second layer's scaled products; the same
  neighbourhood sum again; region 2 leaves the log-softmax. Each boundary of the generated frame run is read here at
  the few buffers later segments use, and the last one at the result buffer.
-/
import proofs.«133916_j43731357008179_2_alg».proof.Proof.Gen.KernelIdeal.Frame
import proofs.«133916_j43731357008179_2_alg».proof.Proof.Region0
import proofs.«133916_j43731357008179_2_alg».proof.Proof.Region1
import proofs.«133916_j43731357008179_2_alg».proof.Proof.Region2

set_option maxRecDepth 16384

noncomputable section

namespace Cert.KernelIdeal.Val

open Cert.KernelIdeal Cert.KernelIdeal.Gen Cert.Gcn Idealize.ShloMosaic Idealize.ShloMosaic.TcCoe
open Idealize.ShloMosaic.ValueIdx Cert.Spec Idealize.SL.Sem Idealize.ShloMosaic.StableHlo

section Values

variable (X : FVec Ideal S100000x512 .f32) (Ei : IVec S2x3200000 32) (W1 : FVec Ideal S512x16 .f32) (b1 : FVec Ideal S16 .f32)
  (W2 : FVec Ideal S16x40 .f32) (b2 : FVec Ideal S40 .f32)

/-- Edge sources, a self-loop per node appended. -/
def src : IVec S3300000 32 := concatenate S3300000 0 [⟨S3200000, shapeCast S3200000 (extractStridedSlice S1x3200000 ![0, 0] Ei slices_S2x3200000_S1x3200000_0_0) shapeCasts_S1x3200000_S3200000⟩, ⟨S100000, iotaInDim S100000 32 0⟩] concatenates_S3200000_S100000_S3300000_d0

/-- Edge targets, a self-loop per node appended. -/
def dst : IVec S3300000 32 := concatenate S3300000 0 [⟨S3200000, shapeCast S3200000 (extractStridedSlice S1x3200000 ![1, 0] Ei slices_S2x3200000_S1x3200000_1_0) shapeCasts_S1x3200000_S3200000⟩, ⟨S100000, iotaInDim S100000 32 0⟩] concatenates_S3200000_S100000_S3300000_d0

/-- An index vector as gather indices: a negative entry counted from the end. -/
def wrap (v : IVec S3300000 32) : IVec S3300000x1 32 := broadcastInDim S3300000x1 ![0] bcast_S3300000_S3300000x1_0
  (select (cmpi .slt v (broadcastInDim S3300000 ![] bcast_S_S3300000 (constantI S_ 32 0#32)))
    (addi v (broadcastInDim S3300000 ![] bcast_S_S3300000 (constantI S_ 32 100000#32))) v)

/-- The targets as scatter indices (one start index per edge). -/
def DI : IVec S3300000x1 32 := broadcastInDim S3300000x1 ![0] bcast_S3300000_S3300000x1_0 (dst Ei)

/-- The in-degrees. -/
def deg : FVec Ideal S100000 .f32 :=
  Host.scatterAdd scatter_S100000_S3300000x1_S3300000_n_0_0_1 (broadcastInDim S100000 ![] bcast_S_S100000 (constant S_ .f32 0x00000000#32))
    (DI Ei) (broadcastInDim S3300000 ![] bcast_S_S3300000 (constant S_ .f32 0x3F800000#32))

/-- The node weights, as a column. -/
def dcol : FVec Ideal S100000x1 .f32 :=
  shapeCast S100000x1 (Host.rsqrt (maximumf (deg Ei) (broadcastInDim S100000 ![] bcast_S_S100000 (constant S_ .f32 0x3F800000#32))))
    shapeCasts_S100000_S100000x1

/-- Region 0's output. -/
def h1s : FVec Ideal S100000x16 .f32 := G0 X W1 (dcol Ei)

/-- The first neighbourhood sum. -/
def agg1 : FVec Ideal S100000x16 .f32 :=
  Host.scatterAdd scatter_S100000x16_S3300000x1_S3300000x16_1_0_0_1 (broadcastInDim S100000x16 ![] bcast_S_S100000x16 (constant S_ .f32 0x00000000#32))
    (DI Ei) (Host.gather gather_S100000x16_S3300000x1_S3300000x16_1_0_n_n_0_1_116 (h1s X Ei W1) (wrap (src Ei)))

/-- Region 1's output. -/
def h2s : FVec Ideal S100000x40 .f32 := G1 (agg1 X Ei W1) (dcol Ei) b1 W2

/-- The second neighbourhood sum. -/
def agg2 : FVec Ideal S100000x40 .f32 :=
  Host.scatterAdd scatter_S100000x40_S3300000x1_S3300000x40_1_0_0_1 (broadcastInDim S100000x40 ![] bcast_S_S100000x40 (constant S_ .f32 0x00000000#32))
    (DI Ei) (Host.gather gather_S100000x40_S3300000x1_S3300000x40_1_0_n_n_0_1_140 (h2s X Ei W1 b1 W2) (wrap (src Ei)))

/-- Region 2's output: the program's result. -/
def out : FVec Ideal S100000x40 .f32 := G2 (agg2 X Ei W1 b1 W2) (dcol Ei) b2

end Values

variable (m : (ℓ : Loc nD τ sig) → Buf (Elt Ideal) ℓ) (ρ : Dev nD → PrngReg) (c : Dev nD)

/-! ## After the first stretch of host operations -/

theorem W1_v5 : W1 m ρ c (Proc.devRef .tc main_v5) = src (m ((c.tc : Thread nD τ).loc main_arg1)) := by
  show StableHlo.after hostOps0 (W0 m ρ c) (Proc.devRef .tc main_v5) = _
  after_results_simp <;> rfl
theorem W1_v6 : W1 m ρ c (Proc.devRef .tc main_v6) = dst (m ((c.tc : Thread nD τ).loc main_arg1)) := by
  show StableHlo.after hostOps0 (W0 m ρ c) (Proc.devRef .tc main_v6) = _
  after_results_simp <;> rfl
theorem W1_v14 : W1 m ρ c (Proc.devRef .tc main_v14) = dcol (m ((c.tc : Thread nD τ).loc main_arg1)) := by
  show StableHlo.after hostOps0 (W0 m ρ c) (Proc.devRef .tc main_v14) = _
  after_results_simp <;> rfl
theorem W1_arg0 : W1 m ρ c (Proc.devRef .tc main_arg0) = m ((c.tc : Thread nD τ).loc main_arg0) := by
  show StableHlo.after hostOps0 (W0 m ρ c) (Proc.devRef .tc main_arg0) = _
  after_results_simp <;> rfl
theorem W1_arg2 : W1 m ρ c (Proc.devRef .tc main_arg2) = m ((c.tc : Thread nD τ).loc main_arg2) := by
  show StableHlo.after hostOps0 (W0 m ρ c) (Proc.devRef .tc main_arg2) = _
  after_results_simp <;> rfl
theorem W1_arg3 : W1 m ρ c (Proc.devRef .tc main_arg3) = m ((c.tc : Thread nD τ).loc main_arg3) := by
  show StableHlo.after hostOps0 (W0 m ρ c) (Proc.devRef .tc main_arg3) = _
  after_results_simp <;> rfl
theorem W1_arg4 : W1 m ρ c (Proc.devRef .tc main_arg4) = m ((c.tc : Thread nD τ).loc main_arg4) := by
  show StableHlo.after hostOps0 (W0 m ρ c) (Proc.devRef .tc main_arg4) = _
  after_results_simp <;> rfl
theorem W1_arg5 : W1 m ρ c (Proc.devRef .tc main_arg5) = m ((c.tc : Thread nD τ).loc main_arg5) := by
  show StableHlo.after hostOps0 (W0 m ρ c) (Proc.devRef .tc main_arg5) = _
  after_results_simp <;> rfl

/-! ## After region 0 -/

theorem W2_v15 : W2 m ρ c (Proc.devRef .tc main_v15) = h1s (m ((c.tc : Thread nD τ).loc main_arg0)) (m ((c.tc : Thread nD τ).loc main_arg1)) (m ((c.tc : Thread nD τ).loc main_arg2)) := by
  refine (W2_arr m ρ c 3).trans ((Region0.final (V1 m ρ) c).trans ?_)
  show G0 (W1 m ρ c (Proc.devRef .tc main_arg0)) (W1 m ρ c (Proc.devRef .tc main_arg2)) (W1 m ρ c (Proc.devRef .tc main_v14)) = _
  rw [W1_arg0, W1_arg2, W1_v14]; rfl
theorem W2_v14 : W2 m ρ c (Proc.devRef .tc main_v14) = dcol (m ((c.tc : Thread nD τ).loc main_arg1)) :=
  (W2_arr m ρ c 2).trans ((((dat0 (V1 m ρ) c).arrAt_in 2 rfl _).trans (A_eq0 (V1 m ρ) c 2)).trans (W1_v14 m ρ c))
theorem W2_v5 : W2 m ρ c (Proc.devRef .tc main_v5) = src (m ((c.tc : Thread nD τ).loc main_arg1)) :=
  (W2_of_ne m ρ c main_v5 (by decide)).trans (W1_v5 m ρ c)
theorem W2_v6 : W2 m ρ c (Proc.devRef .tc main_v6) = dst (m ((c.tc : Thread nD τ).loc main_arg1)) :=
  (W2_of_ne m ρ c main_v6 (by decide)).trans (W1_v6 m ρ c)
theorem W2_arg3 : W2 m ρ c (Proc.devRef .tc main_arg3) = m ((c.tc : Thread nD τ).loc main_arg3) :=
  (W2_of_ne m ρ c main_arg3 (by decide)).trans (W1_arg3 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)

/-! ## After the second stretch of host operations -/

theorem W3_v25 : W3 m ρ c (Proc.devRef .tc main_v25) = agg1 (m ((c.tc : Thread nD τ).loc main_arg0)) (m ((c.tc : Thread nD τ).loc main_arg1)) (m ((c.tc : Thread nD τ).loc main_arg2)) := by
  show StableHlo.after hostOps1 (W2 m ρ c) (Proc.devRef .tc main_v25) = _
  after_results_simp
  rw [W2_v5, W2_v6, W2_v15]; rfl
theorem W3_v26 : W3 m ρ c (Proc.devRef .tc main_v26)
    = shapeCast S1x16 (m ((c.tc : Thread nD τ).loc main_arg3)) shapeCasts_S16_S1x16 := by
  show StableHlo.after hostOps1 (W2 m ρ c) (Proc.devRef .tc main_v26) = _
  after_results_simp
  rw [W2_arg3]; rfl
theorem W3_v14 : W3 m ρ c (Proc.devRef .tc main_v14) = dcol (m ((c.tc : Thread nD τ).loc main_arg1)) := by
  show StableHlo.after hostOps1 (W2 m ρ c) (Proc.devRef .tc main_v14) = _
  after_results_simp
  exact W2_v14 m ρ c
theorem W3_v5 : W3 m ρ c (Proc.devRef .tc main_v5) = src (m ((c.tc : Thread nD τ).loc main_arg1)) := by
  show StableHlo.after hostOps1 (W2 m ρ c) (Proc.devRef .tc main_v5) = _
  after_results_simp
  exact W2_v5 m ρ c
theorem W3_v6 : W3 m ρ c (Proc.devRef .tc main_v6) = dst (m ((c.tc : Thread nD τ).loc main_arg1)) := by
  show StableHlo.after hostOps1 (W2 m ρ c) (Proc.devRef .tc main_v6) = _
  after_results_simp
  exact W2_v6 m ρ c
theorem W3_arg4 : W3 m ρ c (Proc.devRef .tc main_arg4) = m ((c.tc : Thread nD τ).loc main_arg4) := by
  show StableHlo.after hostOps1 (W2 m ρ c) (Proc.devRef .tc main_arg4) = _
  after_results_simp
  exact W2_arg4 m ρ c
theorem W3_arg5 : W3 m ρ c (Proc.devRef .tc main_arg5) = m ((c.tc : Thread nD τ).loc main_arg5) := by
  show StableHlo.after hostOps1 (W2 m ρ c) (Proc.devRef .tc main_arg5) = _
  after_results_simp
  exact W2_arg5 m ρ c

/-! ## After region 1 -/

theorem W4_v27 : W4 m ρ c (Proc.devRef .tc main_v27) = h2s (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W4_arr m ρ c 4).trans ((Region1.final (V3 m ρ) c (m ((c.tc : Thread nD τ).loc main_arg3)) shapeCasts_S16_S1x16 (W3_v26 m ρ c)).trans ?_)
  show G1 (W3 m ρ c (Proc.devRef .tc main_v25)) (W3 m ρ c (Proc.devRef .tc main_v14)) _ (W3 m ρ c (Proc.devRef .tc main_arg4)) = _
  rw [W3_v25, W3_v14, W3_arg4]; rfl
theorem W4_v14 : W4 m ρ c (Proc.devRef .tc main_v14) = dcol (m ((c.tc : Thread nD τ).loc main_arg1)) :=
  (W4_arr m ρ c 1).trans ((((dat1 (V3 m ρ) c).arrAt_in 1 rfl _).trans (A_eq1 (V3 m ρ) c 1)).trans (W3_v14 m ρ c))
theorem W4_v5 : W4 m ρ c (Proc.devRef .tc main_v5) = src (m ((c.tc : Thread nD τ).loc main_arg1)) :=
  (W4_of_ne m ρ c main_v5 (by decide)).trans (W3_v5 m ρ c)
theorem W4_v6 : W4 m ρ c (Proc.devRef .tc main_v6) = dst (m ((c.tc : Thread nD τ).loc main_arg1)) :=
  (W4_of_ne m ρ c main_v6 (by decide)).trans (W3_v6 m ρ c)
theorem W4_arg5 : W4 m ρ c (Proc.devRef .tc main_arg5) = m ((c.tc : Thread nD τ).loc main_arg5) :=
  (W4_of_ne m ρ c main_arg5 (by decide)).trans (W3_arg5 m ρ c)

/-! ## After the third stretch of host operations -/

theorem W5_v37 : W5 m ρ c (Proc.devRef .tc main_v37) = agg2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) (Proc.devRef .tc main_v37) = _
  after_results_simp
  rw [W4_v5, W4_v6, W4_v27]; rfl
theorem W5_v38 : W5 m ρ c (Proc.devRef .tc main_v38)
    = shapeCast S1x40 (m ((c.tc : Thread nD τ).loc main_arg5)) shapeCasts_S40_S1x40 := by
  show StableHlo.after hostOps2 (W4 m ρ c) (Proc.devRef .tc main_v38) = _
  after_results_simp
  rw [W4_arg5]; rfl
theorem W5_v14 : W5 m ρ c (Proc.devRef .tc main_v14) = dcol (m ((c.tc : Thread nD τ).loc main_arg1)) := by
  show StableHlo.after hostOps2 (W4 m ρ c) (Proc.devRef .tc main_v14) = _
  after_results_simp
  exact W4_v14 m ρ c

/-! ## After region 2: the result -/

/-- The last boundary's contents at the result buffer: the composition of the three regions and the two
    neighbourhood sums, of the argument arrays. -/
theorem W6_v39 : W6 m ρ c (Proc.devRef .tc main_v39) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 3).trans ((Region2.final (V5 m ρ) c (m ((c.tc : Thread nD τ).loc main_arg5)) shapeCasts_S40_S1x40 (W5_v38 m ρ c)).trans ?_)
  show G2 (W5 m ρ c (Proc.devRef .tc main_v37)) (W5 m ρ c (Proc.devRef .tc main_v14)) _ = _
  rw [W5_v37, W5_v14]; rfl

end Cert.KernelIdeal.Val

end
-- ==== Proof.RefValue.lean ====
/-
  The idealized reference's result as one function of the argument arrays.

  The reference is a straight line of 124 host operations: per layer the product H = X · W, the edge list with a
  self-loop per node appended, the in-degrees (a scatter-add of ones), D = rsqrt (degree), the per-edge factor
  D (source) · D (target), the gathered rows times that factor summed at each target, and the bias; a maximum with
  zero between the layers and the row-wise log-softmax at the end. The line is read in seven stretches — the first
  layer's graph quantities and product; its weighted sum and bias; the maximum with zero; the second product; the
  second layer's graph quantities (computed again from the edge list, the same terms); its weighted sum and bias; the
  log-softmax — each stretch's few live values named, so that no value is expanded more than once.
-/
import proofs.«133916_j43731357008179_2_alg».proof.Proof.RefRun
import proofs.«133916_j43731357008179_2_alg».proof.Proof.LayerSpec

set_option maxRecDepth 16384

noncomputable section

namespace Cert.ReferenceIdeal.Val

open Cert.ReferenceIdeal Cert.ReferenceIdeal.Gen Cert.ReferenceIdeal.RefRun Cert.Gcn Idealize.ShloMosaic Idealize.ShloMosaic.TcCoe
open Idealize.ShloMosaic.ValueIdx Cert.Spec Idealize.SL.Sem Idealize.ShloMosaic.StableHlo

/-- The fold over a concatenation is the fold over the second list from the fold over the first. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => after_append l₁ l₂ (op.result V)

section Values

variable (X : FVec Ideal S100000x512 .f32) (Ei : IVec S2x3200000 32) (W1 : FVec Ideal S512x16 .f32) (b1 : FVec Ideal S16 .f32)
  (W2 : FVec Ideal S16x40 .f32) (b2 : FVec Ideal S40 .f32)

/-- Edge sources, a self-loop per node appended. -/
def src : IVec S3300000 32 := concatenate S3300000 0 [⟨S3200000, shapeCast S3200000 (extractStridedSlice S1x3200000 ![0, 0] Ei slices_S2x3200000_S1x3200000_0_0) shapeCasts_S1x3200000_S3200000⟩, ⟨S100000, iotaInDim S100000 32 0⟩] concatenates_S3200000_S100000_S3300000_d0

/-- Edge targets, a self-loop per node appended. -/
def dst : IVec S3300000 32 := concatenate S3300000 0 [⟨S3200000, shapeCast S3200000 (extractStridedSlice S1x3200000 ![1, 0] Ei slices_S2x3200000_S1x3200000_1_0) shapeCasts_S1x3200000_S3200000⟩, ⟨S100000, iotaInDim S100000 32 0⟩] concatenates_S3200000_S100000_S3300000_d0

/-- An index vector as gather indices: a negative entry counted from the end. -/
def wrap (v : IVec S3300000 32) : IVec S3300000x1 32 := broadcastInDim S3300000x1 ![0] bcast_S3300000_S3300000x1_0
  (select (cmpi .slt v (broadcastInDim S3300000 ![] bcast_S_S3300000 (constantI S_ 32 0#32)))
    (addi v (broadcastInDim S3300000 ![] bcast_S_S3300000 (constantI S_ 32 100000#32))) v)

/-- The targets as scatter indices (one start index per edge). -/
def DI : IVec S3300000x1 32 := broadcastInDim S3300000x1 ![0] bcast_S3300000_S3300000x1_0 (dst Ei)

/-- The in-degrees. -/
def deg : FVec Ideal S100000 .f32 :=
  Host.scatterAdd scatter_S100000_S3300000x1_S3300000_n_0_0_1 (broadcastInDim S100000 ![] bcast_S_S100000 (constant S_ .f32 0x00000000#32))
    (DI Ei) (broadcastInDim S3300000 ![] bcast_S_S3300000 (constant S_ .f32 0x3F800000#32))

/-- The node weights. -/
def D : FVec Ideal S100000 .f32 := Host.rsqrt (deg Ei)

/-- The per-edge factor D (source) · D (target). -/
def norm : FVec Ideal S3300000 .f32 :=
  mulf (Host.gather gather_S100000_S3300000x1_S3300000_n_0_n_n_0_1_1 (D Ei) (wrap (src Ei)))
    (Host.gather gather_S100000_S3300000x1_S3300000_n_0_n_n_0_1_1 (D Ei) (wrap (dst Ei)))

/-- X · W₁. -/
def H1 : FVec Ideal S100000x16 .f32 :=
  Host.dotGeneral dot_S100000x512_S512x16_S100000x16_1_0_0_1_n_n none X W1

/-- The first layer: weighted neighbourhood sum plus bias. -/
def L1 : FVec Ideal S100000x16 .f32 :=
  addf (Host.scatterAdd scatter_S100000x16_S3300000x1_S3300000x16_1_0_0_1 (broadcastInDim S100000x16 ![] bcast_S_S100000x16 (constant S_ .f32 0x00000000#32))
      (DI Ei)
      (mulf (Host.gather gather_S100000x16_S3300000x1_S3300000x16_1_0_n_n_0_1_116 (H1 X W1) (wrap (src Ei)))
        (broadcastInDim S3300000x16 ![0, 1] bcast_S3300000x1_S3300000x16_0_1 (broadcastInDim S3300000x1 ![0] bcast_S3300000_S3300000x1_0 (norm Ei)))))
    (broadcastInDim S100000x16 ![0, 1] bcast_S1x16_S100000x16_0_1 (broadcastInDim S1x16 ![1] bcast_S16_S1x16_1 b1))

/-- relu (first layer) · W₂. -/
def H2 : FVec Ideal S100000x40 .f32 :=
  Host.dotGeneral dot_S100000x16_S16x40_S100000x40_1_0_0_1_n_n none
    (maximumf (L1 X Ei W1 b1) (broadcastInDim S100000x16 ![] bcast_S_S100000x16 (constant S_ .f32 0x00000000#32))) W2

/-- The second layer: weighted neighbourhood sum plus bias. -/
def L2 : FVec Ideal S100000x40 .f32 :=
  addf (Host.scatterAdd scatter_S100000x40_S3300000x1_S3300000x40_1_0_0_1 (broadcastInDim S100000x40 ![] bcast_S_S100000x40 (constant S_ .f32 0x00000000#32))
      (DI Ei)
      (mulf (Host.gather gather_S100000x40_S3300000x1_S3300000x40_1_0_n_n_0_1_140 (H2 X Ei W1 b1 W2) (wrap (src Ei)))
        (broadcastInDim S3300000x40 ![0, 1] bcast_S3300000x1_S3300000x40_0_1 (broadcastInDim S3300000x1 ![0] bcast_S3300000_S3300000x1_0 (norm Ei)))))
    (broadcastInDim S100000x40 ![0, 1] bcast_S1x40_S100000x40_0_1 (broadcastInDim S1x40 ![1] bcast_S40_S1x40_1 b2))

/-- The reference's result. -/
def out : FVec Ideal S100000x40 .f32 := logSoftmax (L2 X Ei W1 b1 W2 b2)

end Values

variable (m : (ℓ : Loc nD τ sig) → Buf (Elt Ideal) ℓ) (c : Dev nD)

/-- The buffer contents after each stretch. -/
def WA : Valuation τ sig (Elt Ideal) := after opsA (launchContents m c)
def WB : Valuation τ sig (Elt Ideal) := after opsB (WA m c)
def WR : Valuation τ sig (Elt Ideal) := after opsR (WB m c)
def WP : Valuation τ sig (Elt Ideal) := after opsP (WR m c)
def WC : Valuation τ sig (Elt Ideal) := after opsC (WP m c)
def WD : Valuation τ sig (Elt Ideal) := after opsD (WC m c)
def WS : Valuation τ sig (Elt Ideal) := after opsS (WD m c)

/-! ## After the first stretch -/

theorem WA_v0 : WA m c (Proc.devRef .tc main_v0) = H1 (m ((c.tc : Thread nD τ).loc main_arg0)) (m ((c.tc : Thread nD τ).loc main_arg2)) := by
  show after opsA (launchContents m c) (Proc.devRef .tc main_v0) = _
  after_results_simp <;> rfl
theorem WA_v4 : WA m c (Proc.devRef .tc main_v4) = src (m ((c.tc : Thread nD τ).loc main_arg1)) := by
  show after opsA (launchContents m c) (Proc.devRef .tc main_v4) = _
  after_results_simp <;> rfl
theorem WA_v7 : WA m c (Proc.devRef .tc main_v7) = dst (m ((c.tc : Thread nD τ).loc main_arg1)) := by
  show after opsA (launchContents m c) (Proc.devRef .tc main_v7) = _
  after_results_simp <;> rfl
theorem WA_v12 : WA m c (Proc.devRef .tc main_v12) = D (m ((c.tc : Thread nD τ).loc main_arg1)) := by
  show after opsA (launchContents m c) (Proc.devRef .tc main_v12) = _
  after_results_simp <;> rfl
theorem WA_arg1 : WA m c (Proc.devRef .tc main_arg1) = (m ((c.tc : Thread nD τ).loc main_arg1)) := by
  show after opsA (launchContents m c) (Proc.devRef .tc main_arg1) = _
  after_results_simp <;> rfl
theorem WA_arg3 : WA m c (Proc.devRef .tc main_arg3) = (m ((c.tc : Thread nD τ).loc main_arg3)) := by
  show after opsA (launchContents m c) (Proc.devRef .tc main_arg3) = _
  after_results_simp <;> rfl
theorem WA_arg4 : WA m c (Proc.devRef .tc main_arg4) = (m ((c.tc : Thread nD τ).loc main_arg4)) := by
  show after opsA (launchContents m c) (Proc.devRef .tc main_arg4) = _
  after_results_simp <;> rfl
theorem WA_arg5 : WA m c (Proc.devRef .tc main_arg5) = (m ((c.tc : Thread nD τ).loc main_arg5)) := by
  show after opsA (launchContents m c) (Proc.devRef .tc main_arg5) = _
  after_results_simp <;> rfl

/-! ## The first layer's sum and bias -/

theorem WB_v43 : WB m c (Proc.devRef .tc main_v43) = L1 (m ((c.tc : Thread nD τ).loc main_arg0)) (m ((c.tc : Thread nD τ).loc main_arg1)) (m ((c.tc : Thread nD τ).loc main_arg2)) (m ((c.tc : Thread nD τ).loc main_arg3)) := by
  show after opsB (WA m c) (Proc.devRef .tc main_v43) = _
  after_results_simp
  rw [WA_v0, WA_v4, WA_v7, WA_v12, WA_arg3]; rfl
theorem WB_arg1 : WB m c (Proc.devRef .tc main_arg1) = (m ((c.tc : Thread nD τ).loc main_arg1)) := by
  show after opsB (WA m c) (Proc.devRef .tc main_arg1) = _
  after_results_simp
  exact WA_arg1 m c
theorem WB_arg4 : WB m c (Proc.devRef .tc main_arg4) = (m ((c.tc : Thread nD τ).loc main_arg4)) := by
  show after opsB (WA m c) (Proc.devRef .tc main_arg4) = _
  after_results_simp
  exact WA_arg4 m c
theorem WB_arg5 : WB m c (Proc.devRef .tc main_arg5) = (m ((c.tc : Thread nD τ).loc main_arg5)) := by
  show after opsB (WA m c) (Proc.devRef .tc main_arg5) = _
  after_results_simp
  exact WA_arg5 m c

/-! ## The maximum with zero -/

theorem WR_v44 : WR m c (Proc.devRef .tc main_v44)
    = maximumf (L1 (m ((c.tc : Thread nD τ).loc main_arg0)) (m ((c.tc : Thread nD τ).loc main_arg1)) (m ((c.tc : Thread nD τ).loc main_arg2)) (m ((c.tc : Thread nD τ).loc main_arg3))) (broadcastInDim S100000x16 ![] bcast_S_S100000x16 (constant S_ .f32 0x00000000#32)) := by
  show after opsR (WB m c) (Proc.devRef .tc main_v44) = _
  after_results_simp
  simp only [TRef.ofBuf, TRef.toBuf, cast_eq]
  rw [WB_v43]
theorem WR_arg1 : WR m c (Proc.devRef .tc main_arg1) = (m ((c.tc : Thread nD τ).loc main_arg1)) := by
  show after opsR (WB m c) (Proc.devRef .tc main_arg1) = _
  after_results_simp
  exact WB_arg1 m c
theorem WR_arg4 : WR m c (Proc.devRef .tc main_arg4) = (m ((c.tc : Thread nD τ).loc main_arg4)) := by
  show after opsR (WB m c) (Proc.devRef .tc main_arg4) = _
  after_results_simp
  exact WB_arg4 m c
theorem WR_arg5 : WR m c (Proc.devRef .tc main_arg5) = (m ((c.tc : Thread nD τ).loc main_arg5)) := by
  show after opsR (WB m c) (Proc.devRef .tc main_arg5) = _
  after_results_simp
  exact WB_arg5 m c

/-! ## The second layer's product -/

theorem WP_v45 : WP m c (Proc.devRef .tc main_v45) = H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after opsP (WR m c) (Proc.devRef .tc main_v45) = _
  after_results_simp
  rw [WR_v44, WR_arg4]; rfl
theorem WP_arg1 : WP m c (Proc.devRef .tc main_arg1) = (m ((c.tc : Thread nD τ).loc main_arg1)) := by
  show after opsP (WR m c) (Proc.devRef .tc main_arg1) = _
  after_results_simp
  exact WR_arg1 m c
theorem WP_arg5 : WP m c (Proc.devRef .tc main_arg5) = (m ((c.tc : Thread nD τ).loc main_arg5)) := by
  show after opsP (WR m c) (Proc.devRef .tc main_arg5) = _
  after_results_simp
  exact WR_arg5 m c

/-! ## The second layer's graph quantities -/

theorem WC_v49 : WC m c (Proc.devRef .tc main_v49) = src (m ((c.tc : Thread nD τ).loc main_arg1)) := by
  show after opsC (WP m c) (Proc.devRef .tc main_v49) = _
  after_results
  rw [WP_arg1]; rfl
theorem WC_v52 : WC m c (Proc.devRef .tc main_v52) = dst (m ((c.tc : Thread nD τ).loc main_arg1)) := by
  show after opsC (WP m c) (Proc.devRef .tc main_v52) = _
  after_results
  rw [WP_arg1]; rfl
theorem WC_v57 : WC m c (Proc.devRef .tc main_v57) = D (m ((c.tc : Thread nD τ).loc main_arg1)) := by
  show after opsC (WP m c) (Proc.devRef .tc main_v57) = _
  after_results
  rw [WP_arg1]; rfl
theorem WC_v45 : WC m c (Proc.devRef .tc main_v45) = H2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after opsC (WP m c) (Proc.devRef .tc main_v45) = _
  after_results_simp
  exact WP_v45 m c
theorem WC_arg5 : WC m c (Proc.devRef .tc main_arg5) = (m ((c.tc : Thread nD τ).loc main_arg5)) := by
  show after opsC (WP m c) (Proc.devRef .tc main_arg5) = _
  after_results_simp
  exact WP_arg5 m c

/-! ## The second layer's sum and bias -/

theorem WD_v88 : WD m c (Proc.devRef .tc main_v88) = L2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after opsD (WC m c) (Proc.devRef .tc main_v88) = _
  after_results_simp
  rw [WC_v45, WC_v49, WC_v52, WC_v57, WC_arg5]; rfl

/-! ## The log-softmax: the result -/

/-- Reading a typed reference's buffer contents back at the value's type undoes storing them. -/
theorem ofBuf_toBuf {T : BufTy} (x : TRef sig T) (v : T.Contents (Elt Ideal)) : x.ofBuf (x.toBuf v) = v := by
  unfold TRef.ofBuf TRef.toBuf
  rw [cast_cast, cast_eq]

/-- The last stretch on typed references: the log-softmax of what the stretch finds in the buffer of its operand. -/
theorem WS_typed : (TRef.of (sig := sig) (T := ⟨S100000x40, .f32⟩) main_v89).ofBuf (WS m c (Proc.devRef .tc main_v89))
    = logSoftmax ((TRef.of (sig := sig) (T := ⟨S100000x40, .f32⟩) main_v88).ofBuf (WD m c (Proc.devRef .tc main_v88))) := by
  show (TRef.of (sig := sig) (T := ⟨S100000x40, .f32⟩) main_v89).ofBuf (after opsS (WD m c) (Proc.devRef .tc main_v89)) = _
  after_results_simp
  simp only [ofBuf_toBuf]
  generalize (TRef.of (sig := sig) (T := ⟨S100000x40, .f32⟩) main_v88).ofBuf (WD m c (Proc.devRef .tc main_v88)) = z
  rfl

theorem WS_v89 : WS m c (Proc.devRef .tc main_v89) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold out
  refine Eq.trans ?_ ((WS_typed m c).trans (congrArg logSoftmax ?_))
  · rfl
  · exact WD_v88 m c

/-- The fold of all the reference's operations, at the result buffer. -/
theorem after_v89 : after ops (launchContents m c) (Proc.devRef .tc main_v89) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, after_append, after_append, after_append, after_append, after_append, after_append]
  exact WS_v89 m c

set_option maxRecDepth 8192 in
set_option maxHeartbeats 40000000 in
/-- The fold of all the reference's operations leaves every argument buffer as launched. -/
theorem after_args : after ops (launchContents m c) (Proc.devRef .tc main_arg0) = (m ((c.tc : Thread nD τ).loc main_arg0))
    ∧ after ops (launchContents m c) (Proc.devRef .tc main_arg1) = (m ((c.tc : Thread nD τ).loc main_arg1))
    ∧ after ops (launchContents m c) (Proc.devRef .tc main_arg2) = (m ((c.tc : Thread nD τ).loc main_arg2))
    ∧ after ops (launchContents m c) (Proc.devRef .tc main_arg3) = (m ((c.tc : Thread nD τ).loc main_arg3))
    ∧ after ops (launchContents m c) (Proc.devRef .tc main_arg4) = (m ((c.tc : Thread nD τ).loc main_arg4))
    ∧ after ops (launchContents m c) (Proc.devRef .tc main_arg5) = (m ((c.tc : Thread nD τ).loc main_arg5)) :=
  ⟨by after_results_simp <;> rfl, by after_results_simp <;> rfl, by after_results_simp <;> rfl, by after_results_simp <;> rfl, by after_results_simp <;> rfl, by after_results_simp <;> rfl⟩

end Cert.ReferenceIdeal.Val

end
-- ==== Proof.LibDegree.lean ====
/-
  In-degrees with self-loops, and the node weights they give.

  The degree of node v is a scatter-add of ones: 0 plus one for every edge whose target index, read signed, is v
  (an edge whose target lies outside [0, N) is dropped). When every node has at least one edge landing on it — its
  self-loop — the degree is a positive whole number n. Then the larger of n and 1 is n, and n^(-1/2) is a
  non-negative real number: the node weights with and without the guard agree, and they are the kind of factor that
  may be moved across a sum on the extended reals.
-/
import Idealize.ShloMosaic.PureOps.Ideal.Laws
import Idealize.ShloMosaic.Lib.ValueIdx
import Idealize.ShloMosaic.Lib.IdealHost
import Idealize.ShloMosaic.Lib.Pipeline.Value
import proofs.«133916_j43731357008179_2_alg».proof.Proof.LibRowOps

noncomputable section

namespace Cert.Degree

open Idealize.ShloMosaic Idealize.ShloMosaic.ValueIdx

/-- The dimension numbers of a scatter of single elements into a vector: operand [N], start indices [E, 1], updates [E]. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update e starts at its index entry, read signed. -/
theorem start_eq (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem window_eq (e : Fin E) : (vecDims N E wf).window (ix1 e) 0 = 0 := by
  unfold ScatterDims.window
  rw [dif_neg (show (0 : Fin 1) ∉ (vecDims N E wf).sKept from fun hm =>
    (List.mem_filter.mp hm).2 |> fun hn => by simp at hn)]

/-- An update whose index entry, read signed, is v lands on element v. -/
theorem lands (idx : IVec ⟨2, ![E, 1]⟩ w) (e : Fin E) (v : Fin N)
    (h : (idx (ix2 e (0 : Fin 1))).toInt = (v.val : Int)) :
    (vecDims N E wf).resultIdx? (ix1 e) idx = some (ix1 v) := by
  have hv := v.isLt
  have hs := start_eq wf idx e
  have hw := window_eq (N := N) wf e
  unfold ScatterDims.resultIdx?
  have hall : ∀ a, 0 ≤ (vecDims N E wf).start (ix1 e) idx a + (vecDims N E wf).window (ix1 e) a
      ∧ (vecDims N E wf).start (ix1 e) idx a + (vecDims N E wf).window (ix1 e) a < (⟨1, ![N]⟩ : Shape).size a := by
    intro a
    match a with
    | ⟨0, _⟩ =>
      show 0 ≤ (vecDims N E wf).start (ix1 e) idx 0 + (vecDims N E wf).window (ix1 e) 0
        ∧ (vecDims N E wf).start (ix1 e) idx 0 + (vecDims N E wf).window (ix1 e) 0 < (N : Int)
      rw [hs, hw, h]
      omega
  rw [dif_pos hall]
  refine congrArg some (funext fun a => Fin.ext ?_)
  match a with
  | ⟨0, _⟩ =>
    show ((vecDims N E wf).start (ix1 e) idx 0 + (vecDims N E wf).window (ix1 e) 0).toNat = v.val
    rw [hs, hw, h]
    omega

/-- A count of ones is the whole number counted. -/
theorem sum_ones {ι : Type} (s : Finset ι) (f : ι → EReal) (hf : ∀ j, f j = 1) : ∑ j ∈ s, f j = (s.card : EReal) := by
  rw [Finset.sum_congr rfl (fun j _ => hf j), Finset.sum_const, nsmul_one]

/-- The degree of a node with an edge landing on it is a positive whole number. -/
theorem degree_pos (idx : IVec ⟨2, ![E, 1]⟩ w) (Z : (⟨1, ![N]⟩ : Shape).Idx → EReal) (hZ : ∀ i, Z i = 0)
    (U : (⟨1, ![E]⟩ : Shape).Idx → EReal) (hU : ∀ j, U j = 1) (v : Fin N)
    (hloop : ∃ e : Fin E, (idx (ix2 e (0 : Fin 1))).toInt = (v.val : Int)) :
    ∃ n : ℕ, 1 ≤ n ∧ Ideal.hostScatterAdd (vecDims N E wf) Z idx U (ix1 v) = (n : EReal) := by
  unfold Ideal.hostScatterAdd
  rw [hZ, zero_add, sum_ones _ U hU]
  obtain ⟨e, he⟩ := hloop
  exact ⟨_, Finset.card_pos.mpr ⟨ix1 e, Finset.mem_filter.mpr ⟨Finset.mem_univ _, lands wf idx e v he⟩⟩, rfl⟩

/-- n^(-1/2) of a positive whole number is a non-negative real. -/
theorem rsqrt_nat {n : ℕ} (hn : 1 ≤ n) : 0 ≤ Ideal.rsqrt (n : EReal) ∧ Ideal.rsqrt (n : EReal) ≠ ⊤ := by
  have h1 : ¬ ((n : ℝ) < 0) := not_lt.mpr (Nat.cast_nonneg n)
  have h2 : (n : ℝ) ≠ 0 := Nat.cast_ne_zero.mpr (by omega)
  have e : Ideal.rsqrt (n : EReal) = (((Real.sqrt n)⁻¹ : ℝ) : EReal) := by
    rw [← EReal.coe_natCast, Ideal.rsqrt_coe, if_neg h1, if_neg h2]
  rw [e]
  exact ⟨EReal.coe_nonneg.mpr (inv_nonneg.mpr (Real.sqrt_nonneg _)), EReal.coe_ne_top _⟩

/-- The larger of a positive whole number and one is the number. -/
theorem max_one {n : ℕ} (hn : 1 ≤ n) : max (n : EReal) 1 = (n : EReal) := by
  refine max_eq_left ?_
  rw [← EReal.coe_natCast, ← EReal.coe_one, EReal.coe_le_coe_iff]
  exact_mod_cast hn

/-- The node weights: with every node's self-loop counted, rsqrt of the guarded degree (kept as a column) is rsqrt of
    the degree, a non-negative real. -/
theorem weights (idx : IVec ⟨2, ![E, 1]⟩ 32) (Z : FVec Ideal ⟨1, ![N]⟩ .f32) (hZ : ∀ i, Z i = 0)
    (U : FVec Ideal ⟨1, ![E]⟩ .f32) (hU : ∀ j, U j = 1) (One : FVec Ideal ⟨1, ![N]⟩ .f32) (hOne : ∀ i, One i = 1)
    (hloop : ∀ v : Fin N, ∃ e : Fin E, (idx (ix2 e (0 : Fin 1))).toInt = (v.val : Int))
    (hc : (⟨1, ![N]⟩ : Shape).ShapeCasts ⟨2, ![N, 1]⟩) (v : Fin N) :
    shapeCast ⟨2, ![N, 1]⟩ (Host.rsqrt (maximumf (F := Ideal) (Host.scatterAdd (F := Ideal) (φ := .f32) (vecDims N E wf) Z idx U) One)) hc (ix2 v (0 : Fin 1))
        = Host.rsqrt (Host.scatterAdd (F := Ideal) (φ := .f32) (vecDims N E wf) Z idx U) (ix1 v)
      ∧ 0 ≤ Host.rsqrt (Host.scatterAdd (F := Ideal) (φ := .f32) (vecDims N E wf) Z idx U) (ix1 v)
      ∧ Host.rsqrt (Host.scatterAdd (F := Ideal) (φ := .f32) (vecDims N E wf) Z idx U) (ix1 v) ≠ ⊤ := by
  obtain ⟨n, hn, hdeg⟩ := degree_pos wf idx Z hZ U hU v (hloop v)
  have hR : Host.rsqrt (Host.scatterAdd (F := Ideal) (φ := .f32) (vecDims N E wf) Z idx U) (ix1 v) = Ideal.rsqrt (n : EReal) :=
    congrArg Ideal.rsqrt hdeg
  refine ⟨?_, hR ▸ (rsqrt_nat hn).1, hR ▸ (rsqrt_nat hn).2⟩
  rw [RowOps.shapeCast_a_a1_apply _ hc v (0 : Fin 1), hR]
  show Ideal.rsqrt (max (Ideal.hostScatterAdd (vecDims N E wf) Z idx U (ix1 v)) (One (ix1 v))) = _
  rw [hdeg, hOne, max_one hn]

end Cert.Degree

end
-- ==== Proof.Bridge.lean ====
/-
  The two programs compute one function of the argument arrays.

  Both build the same index vectors from the edge list (a self-loop per node appended) and the same in-degrees.
  Every node's self-loop lands on it, so its degree is a positive whole number: the kernel's guard max (degree, 1)
  changes nothing, and the node weight D v = degree^(-1/2) is a non-negative real. An edge that lands on node v has v
  itself as its target index, so the target index read the way a gather reads it (a negative entry counted from the
  end, then clamped) names v again. With these the kernel's arrangement — weights scaled into the rows before the
  neighbourhood sum and out of it after — is the reference's per-edge arrangement, layer by layer.
-/
import proofs.«133916_j43731357008179_2_alg».proof.Proof.KernelValue
import proofs.«133916_j43731357008179_2_alg».proof.Proof.RefValue
import proofs.«133916_j43731357008179_2_alg».proof.Proof.LibDegree
import Idealize.ShloMosaic.Lib.DynamicIndex
import Idealize.ShloMosaic.Lib.IdealHost

set_option maxRecDepth 16384

noncomputable section

namespace Cert.Bridge

open Idealize.ShloMosaic Idealize.ShloMosaic.ValueIdx Cert.Gcn Cert.Spec

variable (X : FVec Ideal ⟨2, ![100000, 512]⟩ .f32) (Ei : IVec ⟨2, ![2, 3200000]⟩ 32) (W1 : FVec Ideal ⟨2, ![512, 16]⟩ .f32)
  (b1 : FVec Ideal ⟨1, ![16]⟩ .f32) (W2 : FVec Ideal ⟨2, ![16, 40]⟩ .f32) (b2 : FVec Ideal ⟨1, ![40]⟩ .f32)

/-- An [E] index vector as an [E, 1] column reads the vector's entry. -/
theorem col_apply (v : IVec ⟨1, ![3300000]⟩ 32) (g : (⟨1, ![3300000]⟩ : Shape).BroadcastsInDim ⟨2, ![3300000, 1]⟩ ![0])
    (e : Fin 3300000) : broadcastInDim ⟨2, ![3300000, 1]⟩ ![0] g v (ix2 e (0 : Fin 1)) = v (ix1 e) := by
  refine broadcastInDim_apply _ g v (ix2 e (0 : Fin 1)) (ix1 e) fun a => ?_
  match a with
  | ⟨0, _⟩ => rfl

/-- The target vector at a self-loop's position is the node's own number. -/
theorem dst_loop (v : Fin 100000) :
    Cert.ReferenceIdeal.Val.dst Ei (ix1 (⟨3200000 + v.val, by omega⟩ : Fin 3300000)) = BitVec.ofNat 32 v.val := by
  unfold Cert.ReferenceIdeal.Val.dst
  refine (concatenate_pair_apply_right (t := ⟨1, ![3300000]⟩) (s₁ := ⟨1, ![3200000]⟩) (s₂ := ⟨1, ![100000]⟩) 0 _ _ _
    (ix1 (⟨3200000 + v.val, by omega⟩ : Fin 3300000)) rfl rfl (ix1 v) (fun b hb => absurd (Subsingleton.elim _ _) hb) ?_).trans ?_
  · show v.val + 3200000 = 3200000 + v.val
    omega
  · rfl

/-- Every node has an edge landing on it: its self-loop. -/
theorem loops (v : Fin 100000) :
    ∃ e : Fin 3300000, (Cert.ReferenceIdeal.Val.DI Ei (ix2 e (0 : Fin 1))).toInt = (v.val : Int) := by
  refine ⟨⟨3200000 + v.val, by omega⟩, ?_⟩
  unfold Cert.ReferenceIdeal.Val.DI
  rw [col_apply, dst_loop]
  exact toInt_ofNat_of_lt (by have := v.isLt; omega)

/-- An edge that lands on node v names v again when its target index is read as a gather reads it. -/
theorem target_again (e : Fin 3300000) (v : Fin 100000)
    (h : (Cert.ReferenceIdeal.Val.DI Ei (ix2 e (0 : Fin 1))).toInt = (v.val : Int)) :
    GatherRows.clampRow 100000 (by omega) (Cert.ReferenceIdeal.Val.wrap (Cert.ReferenceIdeal.Val.dst Ei) (ix2 e (0 : Fin 1))) = v := by
  have hv := v.isLt
  unfold Cert.ReferenceIdeal.Val.DI at h
  rw [col_apply] at h
  unfold Cert.ReferenceIdeal.Val.wrap
  rw [col_apply]
  have hlt : (Cert.ReferenceIdeal.Val.dst Ei (ix1 e)).slt 0#32 = false := by
    simp only [BitVec.slt, BitVec.toInt_zero, decide_eq_false_iff_not, Int.not_lt]
    omega
  have hsel : select (cmpi .slt (Cert.ReferenceIdeal.Val.dst Ei) (broadcastInDim Cert.ReferenceIdeal.S3300000 ![] Cert.ReferenceIdeal.Gen.bcast_S_S3300000 (constantI Cert.ReferenceIdeal.S_ 32 0#32)))
      (addi (Cert.ReferenceIdeal.Val.dst Ei) (broadcastInDim Cert.ReferenceIdeal.S3300000 ![] Cert.ReferenceIdeal.Gen.bcast_S_S3300000 (constantI Cert.ReferenceIdeal.S_ 32 100000#32)))
      (Cert.ReferenceIdeal.Val.dst Ei) (ix1 e) = Cert.ReferenceIdeal.Val.dst Ei (ix1 e) := by
    show (if BitVec.ofBool ((Cert.ReferenceIdeal.Val.dst Ei (ix1 e)).slt 0#32) = 1 then _ else _) = _
    rw [hlt]
    rfl
  rw [hsel]
  refine Fin.ext ?_
  rw [GatherRows.clampRow_val, h]
  show min (v.val : Int).toNat (100000 - 1) = v.val
  rw [Int.toNat_natCast]
  omega

/-- A splat of the zero pattern is zero everywhere. -/
theorem zeros {T : Shape} (g : (⟨0, ![]⟩ : Shape).BroadcastsInDim T ![]) (i : T.Idx) :
    broadcastInDim T ![] g (constant (F := Ideal) ⟨0, ![]⟩ .f32 0x00000000#32) i = 0 :=
  (broadcastInDim_scalar_apply g _ i).trans Ideal.ofBits_zero_f32

/-- A splat of the pattern of one is one everywhere. -/
theorem ones {T : Shape} (g : (⟨0, ![]⟩ : Shape).BroadcastsInDim T ![]) (i : T.Idx) :
    broadcastInDim T ![] g (constant (F := Ideal) ⟨0, ![]⟩ .f32 0x3F800000#32) i = 1 :=
  (broadcastInDim_scalar_apply g _ i).trans Ideal.ofBits_one_f32

/-- The node weights: the kernel's guarded column is the reference's vector, entry by entry, and every entry is a
    non-negative real. -/
theorem node_weights (v : Fin 100000) :
    Cert.KernelIdeal.Val.dcol Ei (ix2 v (0 : Fin 1)) = Cert.ReferenceIdeal.Val.D Ei (ix1 v)
      ∧ 0 ≤ Cert.ReferenceIdeal.Val.D Ei (ix1 v) ∧ Cert.ReferenceIdeal.Val.D Ei (ix1 v) ≠ ⊤ :=
  Degree.weights (N := 100000) (E := 3300000) Cert.ReferenceIdeal.scatter_S100000_S3300000x1_S3300000_n_0_0_1.wf (Cert.ReferenceIdeal.Val.DI Ei)
    _ (zeros Cert.ReferenceIdeal.Gen.bcast_S_S100000) _ (ones Cert.ReferenceIdeal.Gen.bcast_S_S3300000) _ (ones Cert.ReferenceIdeal.Gen.bcast_S_S100000) (loops Ei)
    Cert.KernelIdeal.Gen.shapeCasts_S100000_S100000x1 v

/-- The kernel's result and the reference's are one function of the argument arrays. -/
theorem out_eq : Cert.KernelIdeal.Val.out X Ei W1 b1 W2 b2 = Cert.ReferenceIdeal.Val.out X Ei W1 b1 W2 b2 := by
  have key := layers_eq (N := 100000) (E := 3300000) (by omega)
    Cert.ReferenceIdeal.scatter_S100000x16_S3300000x1_S3300000x16_1_0_0_1.wf Cert.ReferenceIdeal.gather_S100000x16_S3300000x1_S3300000x16_1_0_n_n_0_1_116.wf
    Cert.ReferenceIdeal.scatter_S100000x40_S3300000x1_S3300000x40_1_0_0_1.wf Cert.ReferenceIdeal.gather_S100000x40_S3300000x1_S3300000x40_1_0_n_n_0_1_140.wf
    Cert.ReferenceIdeal.gather_S100000_S3300000x1_S3300000_n_0_n_n_0_1_1.wf
    Cert.ReferenceIdeal.Gen.bcast_S3300000_S3300000x1_0 Cert.ReferenceIdeal.Gen.bcast_S3300000x1_S3300000x16_0_1 Cert.ReferenceIdeal.Gen.bcast_S3300000x1_S3300000x40_0_1
    X W1 b1 W2 b2
    (broadcastInDim Cert.ReferenceIdeal.S100000x16 ![] Cert.ReferenceIdeal.Gen.bcast_S_S100000x16 (constant Cert.ReferenceIdeal.S_ .f32 0x00000000#32))
    (broadcastInDim Cert.ReferenceIdeal.S100000x40 ![] Cert.ReferenceIdeal.Gen.bcast_S_S100000x40 (constant Cert.ReferenceIdeal.S_ .f32 0x00000000#32))
    (zeros Cert.ReferenceIdeal.Gen.bcast_S_S100000x16) (zeros Cert.ReferenceIdeal.Gen.bcast_S_S100000x40)
    (Cert.ReferenceIdeal.Val.D Ei) (Cert.KernelIdeal.Val.dcol Ei) (fun v => (node_weights Ei v).1) (fun v => (node_weights Ei v).2)
    (Cert.ReferenceIdeal.Val.wrap (Cert.ReferenceIdeal.Val.src Ei)) (Cert.ReferenceIdeal.Val.DI Ei) (Cert.ReferenceIdeal.Val.wrap (Cert.ReferenceIdeal.Val.dst Ei)) (target_again Ei)
  exact Eq.trans rfl (key.trans rfl)

end Cert.Bridge

end
-- ==== Proof.lean ====
/-
  A two-layer graph convolution (GCN): the Pallas program against its jnp reference, on the extended reals.

  Both programs add a self-loop per node to the edge list, count every node's in-degree, and take
  D v = degree(v)^(-1/2). A layer is  out v = Σ_{edges u → v} (X · W) u · D u · D v + b;  after the first layer a
  maximum with zero, after the second the row-wise log-softmax. The reference multiplies the factor D u · D v into
  every gathered row before the scatter-add. The kernel program scales row u of X · W by D u inside a row-tiled
  kernel, gathers and scatter-adds on the host with no per-edge factor, and scales row v of the sum by D v inside
  the next kernel (which also adds the bias and, in turn, applies the maximum with zero and the next product, or the
  log-softmax); it guards the degree by a maximum with 1, which changes nothing since the self-loop makes every degree
  at least 1. The factor D v is a non-negative real, so it distributes over the sum at node v on the extended reals
  whatever the rows hold; no finiteness of the inputs is used.

  The pieces: `KernelRun` (the kernel program's run with its result named), `Region0/1/2` (each region's output array
  as one whole-array function of the arrays it finds, by row tiles: `PayTiles`, `LayerSpec`, `LibLogSoftmax`), `KernelValue` (the host
  stretches between the regions read, so the result is a function of the arguments), `RefRun`/`RefValue` (the
  reference's run and result), `LibDegree` (degrees with self-loops and the node weights), `Bridge` (the two results
  are one function).
-/
import proofs.«133916_j43731357008179_2_alg».proof.Defs
import proofs.«133916_j43731357008179_2_alg».proof.Proof.Gen.Kernel
import proofs.«133916_j43731357008179_2_alg».proof.Proof.Gen.Kernel.Skeleton
import proofs.«133916_j43731357008179_2_alg».proof.Proof.Gen.Kernel.Launch
import proofs.«133916_j43731357008179_2_alg».proof.Proof.Gen.Kernel.Points
import proofs.«133916_j43731357008179_2_alg».proof.Proof.Gen.Kernel.Frame
import proofs.«133916_j43731357008179_2_alg».proof.Proof.Gen.KernelIdeal
import proofs.«133916_j43731357008179_2_alg».proof.Proof.Gen.KernelIdeal.Skeleton
import proofs.«133916_j43731357008179_2_alg».proof.Proof.Gen.KernelIdeal.Launch
import proofs.«133916_j43731357008179_2_alg».proof.Proof.Gen.KernelIdeal.Points
import proofs.«133916_j43731357008179_2_alg».proof.Proof.Gen.KernelIdeal.Frame
import proofs.«133916_j43731357008179_2_alg».proof.Proof.Gen.ReferenceIdeal
import proofs.«133916_j43731357008179_2_alg».proof.Proof.Gen.Pre_finite_inputs
import proofs.«133916_j43731357008179_2_alg».proof.Proof.KernelRun
import proofs.«133916_j43731357008179_2_alg».proof.Proof.KernelValue
import proofs.«133916_j43731357008179_2_alg».proof.Proof.RefRun
import proofs.«133916_j43731357008179_2_alg».proof.Proof.RefValue
import proofs.«133916_j43731357008179_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference is a straight line of host operations, none of which writes an argument buffer. -/
theorem frame_ri : Cert.frame_ReferenceIdeal := fun m ρ _ =>
  (θ_run Cert.ReferenceIdeal.defs _ _).mono (fun r h c =>
      ⟨(h c Cert.ReferenceIdeal.main_arg0).trans (Cert.ReferenceIdeal.Val.after_args m c).1,
       (h c Cert.ReferenceIdeal.main_arg1).trans (Cert.ReferenceIdeal.Val.after_args m c).2.1,
       (h c Cert.ReferenceIdeal.main_arg2).trans (Cert.ReferenceIdeal.Val.after_args m c).2.2.1,
       (h c Cert.ReferenceIdeal.main_arg3).trans (Cert.ReferenceIdeal.Val.after_args m c).2.2.2.1,
       (h c Cert.ReferenceIdeal.main_arg4).trans (Cert.ReferenceIdeal.Val.after_args m c).2.2.2.2.1,
       (h c Cert.ReferenceIdeal.main_arg5).trans (Cert.ReferenceIdeal.Val.after_args m c).2.2.2.2.2⟩)
    (Cert.ReferenceIdeal.RefRun.run_after (F := Ideal) m ρ)

/-- The idealization rewrote nothing. -/
theorem preserves : Cert.preserves_Kernel_KernelIdeal := trivial

/-- From memories agreeing on the arguments both idealized programs end with the same result array: the kernel
    program's is the composition of its three regions and two neighbourhood sums, the reference's its line of host
    operations, and the two are one function of the arguments. -/
theorem algebraic : Cert.algebraic_KernelIdeal_ReferenceIdeal := by
  intro m ρ m' ρ' _ hagree
  refine ⟨fun c => Cert.KernelIdeal.Val.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Val.W6_v39 m ρ c), (h c).2⟩)
      (Cert.KernelIdeal.Named.run_named (F := Ideal) m ρ)
  · refine (θ_run Cert.ReferenceIdeal.defs _ _).mono (fun r h c => ⟨?_,
       (h c Cert.ReferenceIdeal.main_arg0).trans (Cert.ReferenceIdeal.Val.after_args m' c).1,
       (h c Cert.ReferenceIdeal.main_arg1).trans (Cert.ReferenceIdeal.Val.after_args m' c).2.1,
       (h c Cert.ReferenceIdeal.main_arg2).trans (Cert.ReferenceIdeal.Val.after_args m' c).2.2.1,
       (h c Cert.ReferenceIdeal.main_arg3).trans (Cert.ReferenceIdeal.Val.after_args m' c).2.2.2.1,
       (h c Cert.ReferenceIdeal.main_arg4).trans (Cert.ReferenceIdeal.Val.after_args m' c).2.2.2.2.1,
       (h c Cert.ReferenceIdeal.main_arg5).trans (Cert.ReferenceIdeal.Val.after_args m' c).2.2.2.2.2⟩)
      (Cert.ReferenceIdeal.RefRun.run_after (F := Ideal) m' ρ')
    refine (h c Cert.ReferenceIdeal.main_v89).trans ((Cert.ReferenceIdeal.Val.after_v89 m' c).trans ?_)
    rw [(hagree c).1, (hagree c).2.1, (hagree c).2.2.1, (hagree c).2.2.2.1, (hagree c).2.2.2.2.1, (hagree c).2.2.2.2.2]
    exact (Cert.Bridge.out_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
